-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64000 : Shape := ⟨2, ![4, 64000]⟩
abbrev S4x64000x588 : Shape := ⟨3, ![4, 64000, 588]⟩
abbrev S4x588 : Shape := ⟨2, ![4, 588]⟩
abbrev S_ : Shape := ⟨0, ![]⟩

class Facts : Prop where
  bcast_S_S4x64000 : S_.BroadcastsInDim S4x64000 (![] : Fin 0 → Fin S4x64000.rank)
  reducesTo_S4x64000_S_d0_1 : S4x64000.ReducesTo [0, 1] S_
  h_S_ : 0 < S_.numel
  bcast_S_S4x64000x588 : S_.BroadcastsInDim S4x64000x588 (![] : Fin 0 → Fin S4x64000x588.rank)
  reducesTo_S4x64000x588_S_d0_1_2 : S4x64000x588.ReducesTo [0, 1, 2] S_
  bcast_S_S4x588 : S_.BroadcastsInDim S4x588 (![] : Fin 0 → Fin S4x588.rank)
  reducesTo_S4x588_S_d0_1 : S4x588.ReducesTo [0, 1] S_

variable [Facts]

def fn {F : FTy → Type} [FloatOps F] (main_arg0 : FVec F S4x64000 .f32) (main_arg1 : FVec F S4x64000x588 .f32) (main_arg2 : FVec F S4x588 .f32) : IVec S_ 1 :=
  let main_v0 : FVec F S4x64000 .f32 := Host.absf main_arg0
  let main_cst : FVec F S_ .f32 := constant S_ .f32 0x7F800000#32
  let main_v1 : FVec F S4x64000 .f32 := broadcastInDim S4x64000 ![] bcast_S_S4x64000 main_cst
  let main_v2 : IVec S4x64000 1 := cmpf .olt main_v0 main_v1
  let main_c : IVec S_ 1 := constantI S_ 1 1#1
  let main_v3 : IVec S_ 1 := (fun x v => Host.reduce IntOp.andi x v reducesTo_S4x64000_S_d0_1 h_S_) main_v2 main_c
  let main_v4 : FVec F S4x64000x588 .f32 := Host.absf main_arg1
  let main_cst_0 : FVec F S_ .f32 := constant S_ .f32 0x7F800000#32
  let main_v5 : FVec F S4x64000x588 .f32 := broadcastInDim S4x64000x588 ![] bcast_S_S4x64000x588 main_cst_0
  let main_v6 : IVec S4x64000x588 1 := cmpf .olt main_v4 main_v5
  let main_c_1 : IVec S_ 1 := constantI S_ 1 1#1
  let main_v7 : IVec S_ 1 := (fun x v => Host.reduce IntOp.andi x v reducesTo_S4x64000x588_S_d0_1_2 h_S_) main_v6 main_c_1
  let main_v8 : IVec S_ 1 := andi main_v3 main_v7
  let main_v9 : FVec F S4x588 .f32 := Host.absf main_arg2
  let main_cst_2 : FVec F S_ .f32 := constant S_ .f32 0x7F800000#32
  let main_v10 : FVec F S4x588 .f32 := broadcastInDim S4x588 ![] bcast_S_S4x588 main_cst_2
  let main_v11 : IVec S4x588 1 := cmpf .olt main_v9 main_v10
  let main_c_3 : IVec S_ 1 := constantI S_ 1 1#1
  let main_v12 : IVec S_ 1 := (fun x v => Host.reduce IntOp.andi x v reducesTo_S4x588_S_d0_1 h_S_) main_v11 main_c_3
  let main_v13 : IVec S_ 1 := andi main_v8 main_v12
  main_v13
-- ==== Kernel.lean ====
abbrev S4x64000 : Shape := ⟨2, ![4, 64000]⟩
abbrev S4x64000x588 : Shape := ⟨3, ![4, 64000, 588]⟩
abbrev S4x588 : Shape := ⟨2, ![4, 588]⟩
abbrev S4x64588 : Shape := ⟨2, ![4, 64588]⟩
abbrev S4x64000x1 : Shape := ⟨3, ![4, 64000, 1]⟩
abbrev S1x3200x588 : Shape := ⟨3, ![1, 3200, 588]⟩
abbrev S1x3200x1 : Shape := ⟨3, ![1, 3200, 1]⟩
abbrev S1x3787 : Shape := ⟨2, ![1, 3787]⟩
abbrev S3787 : Shape := ⟨1, ![3787]⟩
abbrev S3200x588 : Shape := ⟨2, ![3200, 588]⟩
abbrev S3200 : Shape := ⟨1, ![3200]⟩
abbrev S3200x1 : Shape := ⟨2, ![3200, 1]⟩

abbrev nBuf : Space → Nat
  | .hbm => 8
  | .vmem => 7
  | .smem => 0
  | _ => 0

abbrev bufTy : (tb : Table) → Fin (tcTables nBuf tb) → BufTy
  | .hbm, ⟨0, _⟩ => ⟨S4x64000, .f32⟩
  | .hbm, ⟨1, _⟩ => ⟨S4x64000x588, .f32⟩
  | .hbm, ⟨2, _⟩ => ⟨S4x588, .f32⟩
  | .hbm, ⟨3, _⟩ => ⟨S4x588, .f32⟩
  | .hbm, ⟨4, _⟩ => ⟨S4x64588, .f32⟩
  | .hbm, ⟨5, _⟩ => ⟨S4x64000x1, .f32⟩
  | .hbm, ⟨6, _⟩ => ⟨S4x64000x1, .f32⟩
  | .hbm, ⟨7, _⟩ => ⟨S4x64000, .f32⟩
  | .local _ .vmem, ⟨0, _⟩ => ⟨S1x3200x588, .f32⟩
  | .local _ .vmem, ⟨1, _⟩ => ⟨S1x3200x588, .f32⟩
  | .local _ .vmem, ⟨2, _⟩ => ⟨S4x64588, .f32⟩
  | .local _ .vmem, ⟨3, _⟩ => ⟨S1x3200x1, .f32⟩
  | .local _ .vmem, ⟨4, _⟩ => ⟨S1x3200x1, .f32⟩
  | .local _ .vmem, ⟨5, _⟩ => ⟨S1x3200x1, .f32⟩
  | .local _ .vmem, ⟨6, _⟩ => ⟨S1x3200x1, .f32⟩
  | _, _ => ⟨S4x64000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 20], ![false, false]⟩

def k0_mult1 (i : grid0.Coords) : BitVec 32 :=
  let arg1 : BitVec 32 := BitVec.ofNat 32 (i 1).val
  let c3200_i32 : BitVec 32 := 3200#32
  let v0 : BitVec 32 := Scalar.muli arg1 c3200_i32
  v0
def k0_off1 (i : grid0.Coords) : Fin 2 → Nat :=
  let arg0 : BitVec 32 := BitVec.ofNat 32 (i 0).val
  let v2 : Index := Scalar.indexCast arg0
  let arg1 : BitVec 32 := BitVec.ofNat 32 (i 1).val
  let c3200_i32 : BitVec 32 := 3200#32
  let v0 : BitVec 32 := Scalar.muli arg1 c3200_i32
  let v1 : BitVec 32 := v0
  let v3 : Index := Scalar.indexCast v1
  ![v2.toNat, v3.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3200x588 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x64588 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3200x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class K0.Facts₀ : Prop where
  hrank0 : 0 < grid0.rank
  k0_mult1_dvd : ∀ i : grid0.Coords, 128 ∣ (k0_mult1 i).toNat
  k0_off1_inb : ∀ i : grid0.Coords, ∀ a, (k0_off1 i) a + S1x3787.size a ≤ S4x64588.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3200x588.size a ≤ S4x64000x588.size a
  hwx0_0 : ∀ i : grid0.Coords, EltTy.bits .f32 = 32 ∨ (Rect.block (s := S4x64000x588) S1x3200x588.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64588.size a ≤ S4x64588.size a
  hwx0_1 : ∀ i : grid0.Coords, EltTy.bits .f32 = 32 ∨ (Rect.block (s := S4x64588) S4x64588.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3200x1.size a ≤ S4x64000x1.size a
  hwx0_2 : ∀ i : grid0.Coords, EltTy.bits .f32 = 32 ∨ (Rect.block (s := S4x64000x1) S1x3200x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3200x1.size a ≤ S4x64000x1.size a
  hwx0_3 : ∀ i : grid0.Coords, EltTy.bits .f32 = 32 ∨ (Rect.block (s := S4x64000x1) S1x3200x1.size (cc0_transform_3 i) (hinb0_3 i)).WholeWords (EltTy.packing .f32)

class Shapes1.Facts₀ : Prop where
  concatenates_S4x588_S4x64000_S4x64588_d1 : Shape.Concatenates [S4x588, S4x64000] S4x64588 1
  bcast_S4x64000_S4x64000x1_0_1 : S4x64000.BroadcastsInDim S4x64000x1 (![0, 1] : Fin 2 → Fin S4x64000x1.rank)
  h_S1x3787 : 0 < S1x3787.numel
  shapeCasts_S1x3787_S3787 : S1x3787.ShapeCasts S3787
  inb_S1x3200x588_S1x3200x588_0_0_0 : ∀ a, (![0, 0, 0] : Fin 3 → Nat) a + S1x3200x588.size a ≤ S1x3200x588.size a
  h_S1x3200x588 : 0 < S1x3200x588.numel
  shapeCasts_S1x3200x588_S3200x588 : S1x3200x588.ShapeCasts S3200x588
  slices_S3200x588_o0_0_S3200x1 : S3200x588.Slices ![0, 0] S3200x1
  shapeCasts_S3200x1_S3200 : S3200x1.ShapeCasts S3200
  slices_S3787_o587_S3200 : S3787.Slices ![587] S3200
  slices_S3200x588_o0_1_S3200x1 : S3200x588.Slices ![0, 1] S3200x1
  slices_S3787_o586_S3200 : S3787.Slices ![586] S3200
  slices_S3200x588_o0_2_S3200x1 : S3200x588.Slices ![0, 2] S3200x1
  slices_S3787_o585_S3200 : S3787.Slices ![585] S3200
  slices_S3200x588_o0_3_S3200x1 : S3200x588.Slices ![0, 3] S3200x1
  slices_S3787_o584_S3200 : S3787.Slices ![584] S3200
  slices_S3200x588_o0_4_S3200x1 : S3200x588.Slices ![0, 4] S3200x1
  slices_S3787_o583_S3200 : S3787.Slices ![583] S3200
  slices_S3200x588_o0_5_S3200x1 : S3200x588.Slices ![0, 5] S3200x1
  slices_S3787_o582_S3200 : S3787.Slices ![582] S3200
  slices_S3200x588_o0_6_S3200x1 : S3200x588.Slices ![0, 6] S3200x1
  slices_S3787_o581_S3200 : S3787.Slices ![581] S3200
  slices_S3200x588_o0_7_S3200x1 : S3200x588.Slices ![0, 7] S3200x1
  slices_S3787_o580_S3200 : S3787.Slices ![580] S3200
  slices_S3200x588_o0_8_S3200x1 : S3200x588.Slices ![0, 8] S3200x1
  slices_S3787_o579_S3200 : S3787.Slices ![579] S3200
  slices_S3200x588_o0_9_S3200x1 : S3200x588.Slices ![0, 9] S3200x1
  slices_S3787_o578_S3200 : S3787.Slices ![578] S3200
  slices_S3200x588_o0_10_S3200x1 : S3200x588.Slices ![0, 10] S3200x1
  slices_S3787_o577_S3200 : S3787.Slices ![577] S3200
  slices_S3200x588_o0_11_S3200x1 : S3200x588.Slices ![0, 11] S3200x1
  slices_S3787_o576_S3200 : S3787.Slices ![576] S3200
  slices_S3200x588_o0_12_S3200x1 : S3200x588.Slices ![0, 12] S3200x1
  slices_S3787_o575_S3200 : S3787.Slices ![575] S3200
  slices_S3200x588_o0_13_S3200x1 : S3200x588.Slices ![0, 13] S3200x1
  slices_S3787_o574_S3200 : S3787.Slices ![574] S3200
  slices_S3200x588_o0_14_S3200x1 : S3200x588.Slices ![0, 14] S3200x1
  slices_S3787_o573_S3200 : S3787.Slices ![573] S3200
  slices_S3200x588_o0_15_S3200x1 : S3200x588.Slices ![0, 15] S3200x1
  slices_S3787_o572_S3200 : S3787.Slices ![572] S3200
  slices_S3200x588_o0_16_S3200x1 : S3200x588.Slices ![0, 16] S3200x1
  slices_S3787_o571_S3200 : S3787.Slices ![571] S3200
  slices_S3200x588_o0_17_S3200x1 : S3200x588.Slices ![0, 17] S3200x1
  slices_S3787_o570_S3200 : S3787.Slices ![570] S3200
  slices_S3200x588_o0_18_S3200x1 : S3200x588.Slices ![0, 18] S3200x1
  slices_S3787_o569_S3200 : S3787.Slices ![569] S3200
  slices_S3200x588_o0_19_S3200x1 : S3200x588.Slices ![0, 19] S3200x1
  slices_S3787_o568_S3200 : S3787.Slices ![568] S3200
  slices_S3200x588_o0_20_S3200x1 : S3200x588.Slices ![0, 20] S3200x1
  slices_S3787_o567_S3200 : S3787.Slices ![567] S3200
  slices_S3200x588_o0_21_S3200x1 : S3200x588.Slices ![0, 21] S3200x1
  slices_S3787_o566_S3200 : S3787.Slices ![566] S3200
  slices_S3200x588_o0_22_S3200x1 : S3200x588.Slices ![0, 22] S3200x1
  slices_S3787_o565_S3200 : S3787.Slices ![565] S3200
  slices_S3200x588_o0_23_S3200x1 : S3200x588.Slices ![0, 23] S3200x1
  slices_S3787_o564_S3200 : S3787.Slices ![564] S3200
  slices_S3200x588_o0_24_S3200x1 : S3200x588.Slices ![0, 24] S3200x1
  slices_S3787_o563_S3200 : S3787.Slices ![563] S3200
  slices_S3200x588_o0_25_S3200x1 : S3200x588.Slices ![0, 25] S3200x1
  slices_S3787_o562_S3200 : S3787.Slices ![562] S3200
  slices_S3200x588_o0_26_S3200x1 : S3200x588.Slices ![0, 26] S3200x1
  slices_S3787_o561_S3200 : S3787.Slices ![561] S3200
  slices_S3200x588_o0_27_S3200x1 : S3200x588.Slices ![0, 27] S3200x1
  slices_S3787_o560_S3200 : S3787.Slices ![560] S3200
  slices_S3200x588_o0_28_S3200x1 : S3200x588.Slices ![0, 28] S3200x1
  slices_S3787_o559_S3200 : S3787.Slices ![559] S3200
  slices_S3200x588_o0_29_S3200x1 : S3200x588.Slices ![0, 29] S3200x1
  slices_S3787_o558_S3200 : S3787.Slices ![558] S3200
  slices_S3200x588_o0_30_S3200x1 : S3200x588.Slices ![0, 30] S3200x1
  slices_S3787_o557_S3200 : S3787.Slices ![557] S3200
  slices_S3200x588_o0_31_S3200x1 : S3200x588.Slices ![0, 31] S3200x1
  slices_S3787_o556_S3200 : S3787.Slices ![556] S3200
  slices_S3200x588_o0_32_S3200x1 : S3200x588.Slices ![0, 32] S3200x1
  slices_S3787_o555_S3200 : S3787.Slices ![555] S3200
  slices_S3200x588_o0_33_S3200x1 : S3200x588.Slices ![0, 33] S3200x1
  slices_S3787_o554_S3200 : S3787.Slices ![554] S3200
  slices_S3200x588_o0_34_S3200x1 : S3200x588.Slices ![0, 34] S3200x1
  slices_S3787_o553_S3200 : S3787.Slices ![553] S3200
  slices_S3200x588_o0_35_S3200x1 : S3200x588.Slices ![0, 35] S3200x1
  slices_S3787_o552_S3200 : S3787.Slices ![552] S3200
  slices_S3200x588_o0_36_S3200x1 : S3200x588.Slices ![0, 36] S3200x1
  slices_S3787_o551_S3200 : S3787.Slices ![551] S3200
  slices_S3200x588_o0_37_S3200x1 : S3200x588.Slices ![0, 37] S3200x1
  slices_S3787_o550_S3200 : S3787.Slices ![550] S3200
  slices_S3200x588_o0_38_S3200x1 : S3200x588.Slices ![0, 38] S3200x1
  slices_S3787_o549_S3200 : S3787.Slices ![549] S3200
  slices_S3200x588_o0_39_S3200x1 : S3200x588.Slices ![0, 39] S3200x1
  slices_S3787_o548_S3200 : S3787.Slices ![548] S3200
  slices_S3200x588_o0_40_S3200x1 : S3200x588.Slices ![0, 40] S3200x1
  slices_S3787_o547_S3200 : S3787.Slices ![547] S3200
  slices_S3200x588_o0_41_S3200x1 : S3200x588.Slices ![0, 41] S3200x1
  slices_S3787_o546_S3200 : S3787.Slices ![546] S3200
  slices_S3200x588_o0_42_S3200x1 : S3200x588.Slices ![0, 42] S3200x1
  slices_S3787_o545_S3200 : S3787.Slices ![545] S3200
  slices_S3200x588_o0_43_S3200x1 : S3200x588.Slices ![0, 43] S3200x1
  slices_S3787_o544_S3200 : S3787.Slices ![544] S3200
  slices_S3200x588_o0_44_S3200x1 : S3200x588.Slices ![0, 44] S3200x1
  slices_S3787_o543_S3200 : S3787.Slices ![543] S3200
  slices_S3200x588_o0_45_S3200x1 : S3200x588.Slices ![0, 45] S3200x1
  slices_S3787_o542_S3200 : S3787.Slices ![542] S3200
  slices_S3200x588_o0_46_S3200x1 : S3200x588.Slices ![0, 46] S3200x1
  slices_S3787_o541_S3200 : S3787.Slices ![541] S3200
  slices_S3200x588_o0_47_S3200x1 : S3200x588.Slices ![0, 47] S3200x1
  slices_S3787_o540_S3200 : S3787.Slices ![540] S3200
  slices_S3200x588_o0_48_S3200x1 : S3200x588.Slices ![0, 48] S3200x1
  slices_S3787_o539_S3200 : S3787.Slices ![539] S3200
  slices_S3200x588_o0_49_S3200x1 : S3200x588.Slices ![0, 49] S3200x1
  slices_S3787_o538_S3200 : S3787.Slices ![538] S3200
  slices_S3200x588_o0_50_S3200x1 : S3200x588.Slices ![0, 50] S3200x1
  slices_S3787_o537_S3200 : S3787.Slices ![537] S3200
  slices_S3200x588_o0_51_S3200x1 : S3200x588.Slices ![0, 51] S3200x1
  slices_S3787_o536_S3200 : S3787.Slices ![536] S3200
  slices_S3200x588_o0_52_S3200x1 : S3200x588.Slices ![0, 52] S3200x1
  slices_S3787_o535_S3200 : S3787.Slices ![535] S3200
  slices_S3200x588_o0_53_S3200x1 : S3200x588.Slices ![0, 53] S3200x1
  slices_S3787_o534_S3200 : S3787.Slices ![534] S3200
  slices_S3200x588_o0_54_S3200x1 : S3200x588.Slices ![0, 54] S3200x1
  slices_S3787_o533_S3200 : S3787.Slices ![533] S3200
  slices_S3200x588_o0_55_S3200x1 : S3200x588.Slices ![0, 55] S3200x1
  slices_S3787_o532_S3200 : S3787.Slices ![532] S3200
  slices_S3200x588_o0_56_S3200x1 : S3200x588.Slices ![0, 56] S3200x1
  slices_S3787_o531_S3200 : S3787.Slices ![531] S3200
  slices_S3200x588_o0_57_S3200x1 : S3200x588.Slices ![0, 57] S3200x1
  slices_S3787_o530_S3200 : S3787.Slices ![530] S3200
  slices_S3200x588_o0_58_S3200x1 : S3200x588.Slices ![0, 58] S3200x1
  slices_S3787_o529_S3200 : S3787.Slices ![529] S3200
  slices_S3200x588_o0_59_S3200x1 : S3200x588.Slices ![0, 59] S3200x1
  slices_S3787_o528_S3200 : S3787.Slices ![528] S3200
  slices_S3200x588_o0_60_S3200x1 : S3200x588.Slices ![0, 60] S3200x1
  slices_S3787_o527_S3200 : S3787.Slices ![527] S3200
  slices_S3200x588_o0_61_S3200x1 : S3200x588.Slices ![0, 61] S3200x1
  slices_S3787_o526_S3200 : S3787.Slices ![526] S3200
  slices_S3200x588_o0_62_S3200x1 : S3200x588.Slices ![0, 62] S3200x1
  slices_S3787_o525_S3200 : S3787.Slices ![525] S3200
  slices_S3200x588_o0_63_S3200x1 : S3200x588.Slices ![0, 63] S3200x1
  slices_S3787_o524_S3200 : S3787.Slices ![524] S3200
  slices_S3200x588_o0_64_S3200x1 : S3200x588.Slices ![0, 64] S3200x1
  slices_S3787_o523_S3200 : S3787.Slices ![523] S3200
  slices_S3200x588_o0_65_S3200x1 : S3200x588.Slices ![0, 65] S3200x1
  slices_S3787_o522_S3200 : S3787.Slices ![522] S3200
  slices_S3200x588_o0_66_S3200x1 : S3200x588.Slices ![0, 66] S3200x1
  slices_S3787_o521_S3200 : S3787.Slices ![521] S3200
  slices_S3200x588_o0_67_S3200x1 : S3200x588.Slices ![0, 67] S3200x1
  slices_S3787_o520_S3200 : S3787.Slices ![520] S3200
  slices_S3200x588_o0_68_S3200x1 : S3200x588.Slices ![0, 68] S3200x1
  slices_S3787_o519_S3200 : S3787.Slices ![519] S3200
  slices_S3200x588_o0_69_S3200x1 : S3200x588.Slices ![0, 69] S3200x1
  slices_S3787_o518_S3200 : S3787.Slices ![518] S3200
  slices_S3200x588_o0_70_S3200x1 : S3200x588.Slices ![0, 70] S3200x1
  slices_S3787_o517_S3200 : S3787.Slices ![517] S3200
  slices_S3200x588_o0_71_S3200x1 : S3200x588.Slices ![0, 71] S3200x1
  slices_S3787_o516_S3200 : S3787.Slices ![516] S3200
  slices_S3200x588_o0_72_S3200x1 : S3200x588.Slices ![0, 72] S3200x1
  slices_S3787_o515_S3200 : S3787.Slices ![515] S3200
  slices_S3200x588_o0_73_S3200x1 : S3200x588.Slices ![0, 73] S3200x1
  slices_S3787_o514_S3200 : S3787.Slices ![514] S3200
  slices_S3200x588_o0_74_S3200x1 : S3200x588.Slices ![0, 74] S3200x1
  slices_S3787_o513_S3200 : S3787.Slices ![513] S3200
  slices_S3200x588_o0_75_S3200x1 : S3200x588.Slices ![0, 75] S3200x1
  slices_S3787_o512_S3200 : S3787.Slices ![512] S3200
  slices_S3200x588_o0_76_S3200x1 : S3200x588.Slices ![0, 76] S3200x1
  slices_S3787_o511_S3200 : S3787.Slices ![511] S3200
  slices_S3200x588_o0_77_S3200x1 : S3200x588.Slices ![0, 77] S3200x1
  slices_S3787_o510_S3200 : S3787.Slices ![510] S3200
  slices_S3200x588_o0_78_S3200x1 : S3200x588.Slices ![0, 78] S3200x1
  slices_S3787_o509_S3200 : S3787.Slices ![509] S3200
  slices_S3200x588_o0_79_S3200x1 : S3200x588.Slices ![0, 79] S3200x1
  slices_S3787_o508_S3200 : S3787.Slices ![508] S3200
  slices_S3200x588_o0_80_S3200x1 : S3200x588.Slices ![0, 80] S3200x1
  slices_S3787_o507_S3200 : S3787.Slices ![507] S3200
  slices_S3200x588_o0_81_S3200x1 : S3200x588.Slices ![0, 81] S3200x1
  slices_S3787_o506_S3200 : S3787.Slices ![506] S3200
  slices_S3200x588_o0_82_S3200x1 : S3200x588.Slices ![0, 82] S3200x1
  slices_S3787_o505_S3200 : S3787.Slices ![505] S3200
  slices_S3200x588_o0_83_S3200x1 : S3200x588.Slices ![0, 83] S3200x1
  slices_S3787_o504_S3200 : S3787.Slices ![504] S3200
  slices_S3200x588_o0_84_S3200x1 : S3200x588.Slices ![0, 84] S3200x1
  slices_S3787_o503_S3200 : S3787.Slices ![503] S3200
  slices_S3200x588_o0_85_S3200x1 : S3200x588.Slices ![0, 85] S3200x1
  slices_S3787_o502_S3200 : S3787.Slices ![502] S3200
  slices_S3200x588_o0_86_S3200x1 : S3200x588.Slices ![0, 86] S3200x1
  slices_S3787_o501_S3200 : S3787.Slices ![501] S3200
  slices_S3200x588_o0_87_S3200x1 : S3200x588.Slices ![0, 87] S3200x1
  slices_S3787_o500_S3200 : S3787.Slices ![500] S3200
  slices_S3200x588_o0_88_S3200x1 : S3200x588.Slices ![0, 88] S3200x1
  slices_S3787_o499_S3200 : S3787.Slices ![499] S3200
  slices_S3200x588_o0_89_S3200x1 : S3200x588.Slices ![0, 89] S3200x1
  slices_S3787_o498_S3200 : S3787.Slices ![498] S3200
  slices_S3200x588_o0_90_S3200x1 : S3200x588.Slices ![0, 90] S3200x1
  slices_S3787_o497_S3200 : S3787.Slices ![497] S3200
  slices_S3200x588_o0_91_S3200x1 : S3200x588.Slices ![0, 91] S3200x1
  slices_S3787_o496_S3200 : S3787.Slices ![496] S3200
  slices_S3200x588_o0_92_S3200x1 : S3200x588.Slices ![0, 92] S3200x1
  slices_S3787_o495_S3200 : S3787.Slices ![495] S3200
  slices_S3200x588_o0_93_S3200x1 : S3200x588.Slices ![0, 93] S3200x1
  slices_S3787_o494_S3200 : S3787.Slices ![494] S3200
  slices_S3200x588_o0_94_S3200x1 : S3200x588.Slices ![0, 94] S3200x1
  slices_S3787_o493_S3200 : S3787.Slices ![493] S3200
  slices_S3200x588_o0_95_S3200x1 : S3200x588.Slices ![0, 95] S3200x1
  slices_S3787_o492_S3200 : S3787.Slices ![492] S3200
  slices_S3200x588_o0_96_S3200x1 : S3200x588.Slices ![0, 96] S3200x1
  slices_S3787_o491_S3200 : S3787.Slices ![491] S3200
  slices_S3200x588_o0_97_S3200x1 : S3200x588.Slices ![0, 97] S3200x1
  slices_S3787_o490_S3200 : S3787.Slices ![490] S3200
  slices_S3200x588_o0_98_S3200x1 : S3200x588.Slices ![0, 98] S3200x1
  slices_S3787_o489_S3200 : S3787.Slices ![489] S3200
  slices_S3200x588_o0_99_S3200x1 : S3200x588.Slices ![0, 99] S3200x1
  slices_S3787_o488_S3200 : S3787.Slices ![488] S3200
  slices_S3200x588_o0_100_S3200x1 : S3200x588.Slices ![0, 100] S3200x1
  slices_S3787_o487_S3200 : S3787.Slices ![487] S3200
  slices_S3200x588_o0_101_S3200x1 : S3200x588.Slices ![0, 101] S3200x1
  slices_S3787_o486_S3200 : S3787.Slices ![486] S3200
  slices_S3200x588_o0_102_S3200x1 : S3200x588.Slices ![0, 102] S3200x1
  slices_S3787_o485_S3200 : S3787.Slices ![485] S3200
  slices_S3200x588_o0_103_S3200x1 : S3200x588.Slices ![0, 103] S3200x1
  slices_S3787_o484_S3200 : S3787.Slices ![484] S3200
  slices_S3200x588_o0_104_S3200x1 : S3200x588.Slices ![0, 104] S3200x1
  slices_S3787_o483_S3200 : S3787.Slices ![483] S3200
  slices_S3200x588_o0_105_S3200x1 : S3200x588.Slices ![0, 105] S3200x1
  slices_S3787_o482_S3200 : S3787.Slices ![482] S3200
  slices_S3200x588_o0_106_S3200x1 : S3200x588.Slices ![0, 106] S3200x1
  slices_S3787_o481_S3200 : S3787.Slices ![481] S3200
  slices_S3200x588_o0_107_S3200x1 : S3200x588.Slices ![0, 107] S3200x1
  slices_S3787_o480_S3200 : S3787.Slices ![480] S3200
  slices_S3200x588_o0_108_S3200x1 : S3200x588.Slices ![0, 108] S3200x1
  slices_S3787_o479_S3200 : S3787.Slices ![479] S3200
  slices_S3200x588_o0_109_S3200x1 : S3200x588.Slices ![0, 109] S3200x1
  slices_S3787_o478_S3200 : S3787.Slices ![478] S3200
  slices_S3200x588_o0_110_S3200x1 : S3200x588.Slices ![0, 110] S3200x1
  slices_S3787_o477_S3200 : S3787.Slices ![477] S3200
  slices_S3200x588_o0_111_S3200x1 : S3200x588.Slices ![0, 111] S3200x1
  slices_S3787_o476_S3200 : S3787.Slices ![476] S3200
  slices_S3200x588_o0_112_S3200x1 : S3200x588.Slices ![0, 112] S3200x1
  slices_S3787_o475_S3200 : S3787.Slices ![475] S3200
  slices_S3200x588_o0_113_S3200x1 : S3200x588.Slices ![0, 113] S3200x1
  slices_S3787_o474_S3200 : S3787.Slices ![474] S3200
  slices_S3200x588_o0_114_S3200x1 : S3200x588.Slices ![0, 114] S3200x1
  slices_S3787_o473_S3200 : S3787.Slices ![473] S3200
  slices_S3200x588_o0_115_S3200x1 : S3200x588.Slices ![0, 115] S3200x1
  slices_S3787_o472_S3200 : S3787.Slices ![472] S3200
  slices_S3200x588_o0_116_S3200x1 : S3200x588.Slices ![0, 116] S3200x1
  slices_S3787_o471_S3200 : S3787.Slices ![471] S3200
  slices_S3200x588_o0_117_S3200x1 : S3200x588.Slices ![0, 117] S3200x1
  slices_S3787_o470_S3200 : S3787.Slices ![470] S3200
  slices_S3200x588_o0_118_S3200x1 : S3200x588.Slices ![0, 118] S3200x1
  slices_S3787_o469_S3200 : S3787.Slices ![469] S3200
  slices_S3200x588_o0_119_S3200x1 : S3200x588.Slices ![0, 119] S3200x1
  slices_S3787_o468_S3200 : S3787.Slices ![468] S3200
  slices_S3200x588_o0_120_S3200x1 : S3200x588.Slices ![0, 120] S3200x1
  slices_S3787_o467_S3200 : S3787.Slices ![467] S3200
  slices_S3200x588_o0_121_S3200x1 : S3200x588.Slices ![0, 121] S3200x1
  slices_S3787_o466_S3200 : S3787.Slices ![466] S3200
  slices_S3200x588_o0_122_S3200x1 : S3200x588.Slices ![0, 122] S3200x1
  slices_S3787_o465_S3200 : S3787.Slices ![465] S3200
  slices_S3200x588_o0_123_S3200x1 : S3200x588.Slices ![0, 123] S3200x1
  slices_S3787_o464_S3200 : S3787.Slices ![464] S3200
  slices_S3200x588_o0_124_S3200x1 : S3200x588.Slices ![0, 124] S3200x1
  slices_S3787_o463_S3200 : S3787.Slices ![463] S3200
  slices_S3200x588_o0_125_S3200x1 : S3200x588.Slices ![0, 125] S3200x1
  slices_S3787_o462_S3200 : S3787.Slices ![462] S3200
  slices_S3200x588_o0_126_S3200x1 : S3200x588.Slices ![0, 126] S3200x1
  slices_S3787_o461_S3200 : S3787.Slices ![461] S3200
  slices_S3200x588_o0_127_S3200x1 : S3200x588.Slices ![0, 127] S3200x1
  slices_S3787_o460_S3200 : S3787.Slices ![460] S3200
  slices_S3200x588_o0_128_S3200x1 : S3200x588.Slices ![0, 128] S3200x1
  slices_S3787_o459_S3200 : S3787.Slices ![459] S3200
  slices_S3200x588_o0_129_S3200x1 : S3200x588.Slices ![0, 129] S3200x1
  slices_S3787_o458_S3200 : S3787.Slices ![458] S3200
  slices_S3200x588_o0_130_S3200x1 : S3200x588.Slices ![0, 130] S3200x1
  slices_S3787_o457_S3200 : S3787.Slices ![457] S3200
  slices_S3200x588_o0_131_S3200x1 : S3200x588.Slices ![0, 131] S3200x1
  slices_S3787_o456_S3200 : S3787.Slices ![456] S3200
  slices_S3200x588_o0_132_S3200x1 : S3200x588.Slices ![0, 132] S3200x1
  slices_S3787_o455_S3200 : S3787.Slices ![455] S3200
  slices_S3200x588_o0_133_S3200x1 : S3200x588.Slices ![0, 133] S3200x1
  slices_S3787_o454_S3200 : S3787.Slices ![454] S3200
  slices_S3200x588_o0_134_S3200x1 : S3200x588.Slices ![0, 134] S3200x1
  slices_S3787_o453_S3200 : S3787.Slices ![453] S3200
  slices_S3200x588_o0_135_S3200x1 : S3200x588.Slices ![0, 135] S3200x1
  slices_S3787_o452_S3200 : S3787.Slices ![452] S3200
  slices_S3200x588_o0_136_S3200x1 : S3200x588.Slices ![0, 136] S3200x1
  slices_S3787_o451_S3200 : S3787.Slices ![451] S3200
  slices_S3200x588_o0_137_S3200x1 : S3200x588.Slices ![0, 137] S3200x1
  slices_S3787_o450_S3200 : S3787.Slices ![450] S3200
  slices_S3200x588_o0_138_S3200x1 : S3200x588.Slices ![0, 138] S3200x1
  slices_S3787_o449_S3200 : S3787.Slices ![449] S3200
  slices_S3200x588_o0_139_S3200x1 : S3200x588.Slices ![0, 139] S3200x1
  slices_S3787_o448_S3200 : S3787.Slices ![448] S3200
  slices_S3200x588_o0_140_S3200x1 : S3200x588.Slices ![0, 140] S3200x1
  slices_S3787_o447_S3200 : S3787.Slices ![447] S3200
  slices_S3200x588_o0_141_S3200x1 : S3200x588.Slices ![0, 141] S3200x1
  slices_S3787_o446_S3200 : S3787.Slices ![446] S3200
  slices_S3200x588_o0_142_S3200x1 : S3200x588.Slices ![0, 142] S3200x1
  slices_S3787_o445_S3200 : S3787.Slices ![445] S3200
  slices_S3200x588_o0_143_S3200x1 : S3200x588.Slices ![0, 143] S3200x1
  slices_S3787_o444_S3200 : S3787.Slices ![444] S3200
  slices_S3200x588_o0_144_S3200x1 : S3200x588.Slices ![0, 144] S3200x1
  slices_S3787_o443_S3200 : S3787.Slices ![443] S3200
  slices_S3200x588_o0_145_S3200x1 : S3200x588.Slices ![0, 145] S3200x1
  slices_S3787_o442_S3200 : S3787.Slices ![442] S3200
  slices_S3200x588_o0_146_S3200x1 : S3200x588.Slices ![0, 146] S3200x1
  slices_S3787_o441_S3200 : S3787.Slices ![441] S3200
  slices_S3200x588_o0_147_S3200x1 : S3200x588.Slices ![0, 147] S3200x1
  slices_S3787_o440_S3200 : S3787.Slices ![440] S3200
  slices_S3200x588_o0_148_S3200x1 : S3200x588.Slices ![0, 148] S3200x1
  slices_S3787_o439_S3200 : S3787.Slices ![439] S3200
  slices_S3200x588_o0_149_S3200x1 : S3200x588.Slices ![0, 149] S3200x1
  slices_S3787_o438_S3200 : S3787.Slices ![438] S3200
  slices_S3200x588_o0_150_S3200x1 : S3200x588.Slices ![0, 150] S3200x1
  slices_S3787_o437_S3200 : S3787.Slices ![437] S3200
  slices_S3200x588_o0_151_S3200x1 : S3200x588.Slices ![0, 151] S3200x1
  slices_S3787_o436_S3200 : S3787.Slices ![436] S3200
  slices_S3200x588_o0_152_S3200x1 : S3200x588.Slices ![0, 152] S3200x1
  slices_S3787_o435_S3200 : S3787.Slices ![435] S3200
  slices_S3200x588_o0_153_S3200x1 : S3200x588.Slices ![0, 153] S3200x1
  slices_S3787_o434_S3200 : S3787.Slices ![434] S3200
  slices_S3200x588_o0_154_S3200x1 : S3200x588.Slices ![0, 154] S3200x1
  slices_S3787_o433_S3200 : S3787.Slices ![433] S3200
  slices_S3200x588_o0_155_S3200x1 : S3200x588.Slices ![0, 155] S3200x1
  slices_S3787_o432_S3200 : S3787.Slices ![432] S3200
  slices_S3200x588_o0_156_S3200x1 : S3200x588.Slices ![0, 156] S3200x1
  slices_S3787_o431_S3200 : S3787.Slices ![431] S3200
  slices_S3200x588_o0_157_S3200x1 : S3200x588.Slices ![0, 157] S3200x1
  slices_S3787_o430_S3200 : S3787.Slices ![430] S3200
  slices_S3200x588_o0_158_S3200x1 : S3200x588.Slices ![0, 158] S3200x1
  slices_S3787_o429_S3200 : S3787.Slices ![429] S3200
  slices_S3200x588_o0_159_S3200x1 : S3200x588.Slices ![0, 159] S3200x1
  slices_S3787_o428_S3200 : S3787.Slices ![428] S3200
  slices_S3200x588_o0_160_S3200x1 : S3200x588.Slices ![0, 160] S3200x1
  slices_S3787_o427_S3200 : S3787.Slices ![427] S3200
  slices_S3200x588_o0_161_S3200x1 : S3200x588.Slices ![0, 161] S3200x1
  slices_S3787_o426_S3200 : S3787.Slices ![426] S3200
  slices_S3200x588_o0_162_S3200x1 : S3200x588.Slices ![0, 162] S3200x1
  slices_S3787_o425_S3200 : S3787.Slices ![425] S3200
  slices_S3200x588_o0_163_S3200x1 : S3200x588.Slices ![0, 163] S3200x1
  slices_S3787_o424_S3200 : S3787.Slices ![424] S3200
  slices_S3200x588_o0_164_S3200x1 : S3200x588.Slices ![0, 164] S3200x1
  slices_S3787_o423_S3200 : S3787.Slices ![423] S3200
  slices_S3200x588_o0_165_S3200x1 : S3200x588.Slices ![0, 165] S3200x1
  slices_S3787_o422_S3200 : S3787.Slices ![422] S3200
  slices_S3200x588_o0_166_S3200x1 : S3200x588.Slices ![0, 166] S3200x1
  slices_S3787_o421_S3200 : S3787.Slices ![421] S3200
  slices_S3200x588_o0_167_S3200x1 : S3200x588.Slices ![0, 167] S3200x1
  slices_S3787_o420_S3200 : S3787.Slices ![420] S3200
  slices_S3200x588_o0_168_S3200x1 : S3200x588.Slices ![0, 168] S3200x1
  slices_S3787_o419_S3200 : S3787.Slices ![419] S3200
  slices_S3200x588_o0_169_S3200x1 : S3200x588.Slices ![0, 169] S3200x1
  slices_S3787_o418_S3200 : S3787.Slices ![418] S3200
  slices_S3200x588_o0_170_S3200x1 : S3200x588.Slices ![0, 170] S3200x1
  slices_S3787_o417_S3200 : S3787.Slices ![417] S3200
  slices_S3200x588_o0_171_S3200x1 : S3200x588.Slices ![0, 171] S3200x1
  slices_S3787_o416_S3200 : S3787.Slices ![416] S3200
  slices_S3200x588_o0_172_S3200x1 : S3200x588.Slices ![0, 172] S3200x1
  slices_S3787_o415_S3200 : S3787.Slices ![415] S3200
  slices_S3200x588_o0_173_S3200x1 : S3200x588.Slices ![0, 173] S3200x1
  slices_S3787_o414_S3200 : S3787.Slices ![414] S3200
  slices_S3200x588_o0_174_S3200x1 : S3200x588.Slices ![0, 174] S3200x1
  slices_S3787_o413_S3200 : S3787.Slices ![413] S3200
  slices_S3200x588_o0_175_S3200x1 : S3200x588.Slices ![0, 175] S3200x1
  slices_S3787_o412_S3200 : S3787.Slices ![412] S3200
  slices_S3200x588_o0_176_S3200x1 : S3200x588.Slices ![0, 176] S3200x1
  slices_S3787_o411_S3200 : S3787.Slices ![411] S3200
  slices_S3200x588_o0_177_S3200x1 : S3200x588.Slices ![0, 177] S3200x1
  slices_S3787_o410_S3200 : S3787.Slices ![410] S3200
  slices_S3200x588_o0_178_S3200x1 : S3200x588.Slices ![0, 178] S3200x1
  slices_S3787_o409_S3200 : S3787.Slices ![409] S3200
  slices_S3200x588_o0_179_S3200x1 : S3200x588.Slices ![0, 179] S3200x1
  slices_S3787_o408_S3200 : S3787.Slices ![408] S3200
  slices_S3200x588_o0_180_S3200x1 : S3200x588.Slices ![0, 180] S3200x1
  slices_S3787_o407_S3200 : S3787.Slices ![407] S3200
  slices_S3200x588_o0_181_S3200x1 : S3200x588.Slices ![0, 181] S3200x1
  slices_S3787_o406_S3200 : S3787.Slices ![406] S3200
  slices_S3200x588_o0_182_S3200x1 : S3200x588.Slices ![0, 182] S3200x1
  slices_S3787_o405_S3200 : S3787.Slices ![405] S3200
  slices_S3200x588_o0_183_S3200x1 : S3200x588.Slices ![0, 183] S3200x1
  slices_S3787_o404_S3200 : S3787.Slices ![404] S3200
  slices_S3200x588_o0_184_S3200x1 : S3200x588.Slices ![0, 184] S3200x1
  slices_S3787_o403_S3200 : S3787.Slices ![403] S3200
  slices_S3200x588_o0_185_S3200x1 : S3200x588.Slices ![0, 185] S3200x1
  slices_S3787_o402_S3200 : S3787.Slices ![402] S3200
  slices_S3200x588_o0_186_S3200x1 : S3200x588.Slices ![0, 186] S3200x1
  slices_S3787_o401_S3200 : S3787.Slices ![401] S3200
  slices_S3200x588_o0_187_S3200x1 : S3200x588.Slices ![0, 187] S3200x1
  slices_S3787_o400_S3200 : S3787.Slices ![400] S3200
  slices_S3200x588_o0_188_S3200x1 : S3200x588.Slices ![0, 188] S3200x1
  slices_S3787_o399_S3200 : S3787.Slices ![399] S3200
  slices_S3200x588_o0_189_S3200x1 : S3200x588.Slices ![0, 189] S3200x1
  slices_S3787_o398_S3200 : S3787.Slices ![398] S3200
  slices_S3200x588_o0_190_S3200x1 : S3200x588.Slices ![0, 190] S3200x1
  slices_S3787_o397_S3200 : S3787.Slices ![397] S3200
  slices_S3200x588_o0_191_S3200x1 : S3200x588.Slices ![0, 191] S3200x1
  slices_S3787_o396_S3200 : S3787.Slices ![396] S3200
  slices_S3200x588_o0_192_S3200x1 : S3200x588.Slices ![0, 192] S3200x1
  slices_S3787_o395_S3200 : S3787.Slices ![395] S3200
  slices_S3200x588_o0_193_S3200x1 : S3200x588.Slices ![0, 193] S3200x1
  slices_S3787_o394_S3200 : S3787.Slices ![394] S3200
  slices_S3200x588_o0_194_S3200x1 : S3200x588.Slices ![0, 194] S3200x1
  slices_S3787_o393_S3200 : S3787.Slices ![393] S3200
  slices_S3200x588_o0_195_S3200x1 : S3200x588.Slices ![0, 195] S3200x1
  slices_S3787_o392_S3200 : S3787.Slices ![392] S3200
  slices_S3200x588_o0_196_S3200x1 : S3200x588.Slices ![0, 196] S3200x1
  slices_S3787_o391_S3200 : S3787.Slices ![391] S3200
  slices_S3200x588_o0_197_S3200x1 : S3200x588.Slices ![0, 197] S3200x1
  slices_S3787_o390_S3200 : S3787.Slices ![390] S3200
  slices_S3200x588_o0_198_S3200x1 : S3200x588.Slices ![0, 198] S3200x1
  slices_S3787_o389_S3200 : S3787.Slices ![389] S3200
  slices_S3200x588_o0_199_S3200x1 : S3200x588.Slices ![0, 199] S3200x1
  slices_S3787_o388_S3200 : S3787.Slices ![388] S3200
  slices_S3200x588_o0_200_S3200x1 : S3200x588.Slices ![0, 200] S3200x1
  slices_S3787_o387_S3200 : S3787.Slices ![387] S3200
  slices_S3200x588_o0_201_S3200x1 : S3200x588.Slices ![0, 201] S3200x1
  slices_S3787_o386_S3200 : S3787.Slices ![386] S3200
  slices_S3200x588_o0_202_S3200x1 : S3200x588.Slices ![0, 202] S3200x1
  slices_S3787_o385_S3200 : S3787.Slices ![385] S3200
  slices_S3200x588_o0_203_S3200x1 : S3200x588.Slices ![0, 203] S3200x1
  slices_S3787_o384_S3200 : S3787.Slices ![384] S3200
  slices_S3200x588_o0_204_S3200x1 : S3200x588.Slices ![0, 204] S3200x1
  slices_S3787_o383_S3200 : S3787.Slices ![383] S3200
  slices_S3200x588_o0_205_S3200x1 : S3200x588.Slices ![0, 205] S3200x1
  slices_S3787_o382_S3200 : S3787.Slices ![382] S3200
  slices_S3200x588_o0_206_S3200x1 : S3200x588.Slices ![0, 206] S3200x1
  slices_S3787_o381_S3200 : S3787.Slices ![381] S3200
  slices_S3200x588_o0_207_S3200x1 : S3200x588.Slices ![0, 207] S3200x1
  slices_S3787_o380_S3200 : S3787.Slices ![380] S3200
  slices_S3200x588_o0_208_S3200x1 : S3200x588.Slices ![0, 208] S3200x1
  slices_S3787_o379_S3200 : S3787.Slices ![379] S3200
  slices_S3200x588_o0_209_S3200x1 : S3200x588.Slices ![0, 209] S3200x1
  slices_S3787_o378_S3200 : S3787.Slices ![378] S3200
  slices_S3200x588_o0_210_S3200x1 : S3200x588.Slices ![0, 210] S3200x1
  slices_S3787_o377_S3200 : S3787.Slices ![377] S3200
  slices_S3200x588_o0_211_S3200x1 : S3200x588.Slices ![0, 211] S3200x1
  slices_S3787_o376_S3200 : S3787.Slices ![376] S3200
  slices_S3200x588_o0_212_S3200x1 : S3200x588.Slices ![0, 212] S3200x1
  slices_S3787_o375_S3200 : S3787.Slices ![375] S3200
  slices_S3200x588_o0_213_S3200x1 : S3200x588.Slices ![0, 213] S3200x1
  slices_S3787_o374_S3200 : S3787.Slices ![374] S3200
  slices_S3200x588_o0_214_S3200x1 : S3200x588.Slices ![0, 214] S3200x1
  slices_S3787_o373_S3200 : S3787.Slices ![373] S3200
  slices_S3200x588_o0_215_S3200x1 : S3200x588.Slices ![0, 215] S3200x1
  slices_S3787_o372_S3200 : S3787.Slices ![372] S3200
  slices_S3200x588_o0_216_S3200x1 : S3200x588.Slices ![0, 216] S3200x1
  slices_S3787_o371_S3200 : S3787.Slices ![371] S3200
  slices_S3200x588_o0_217_S3200x1 : S3200x588.Slices ![0, 217] S3200x1
  slices_S3787_o370_S3200 : S3787.Slices ![370] S3200
  slices_S3200x588_o0_218_S3200x1 : S3200x588.Slices ![0, 218] S3200x1
  slices_S3787_o369_S3200 : S3787.Slices ![369] S3200
  slices_S3200x588_o0_219_S3200x1 : S3200x588.Slices ![0, 219] S3200x1
  slices_S3787_o368_S3200 : S3787.Slices ![368] S3200
  slices_S3200x588_o0_220_S3200x1 : S3200x588.Slices ![0, 220] S3200x1
  slices_S3787_o367_S3200 : S3787.Slices ![367] S3200
  slices_S3200x588_o0_221_S3200x1 : S3200x588.Slices ![0, 221] S3200x1
  slices_S3787_o366_S3200 : S3787.Slices ![366] S3200
  slices_S3200x588_o0_222_S3200x1 : S3200x588.Slices ![0, 222] S3200x1
  slices_S3787_o365_S3200 : S3787.Slices ![365] S3200
  slices_S3200x588_o0_223_S3200x1 : S3200x588.Slices ![0, 223] S3200x1
  slices_S3787_o364_S3200 : S3787.Slices ![364] S3200
  slices_S3200x588_o0_224_S3200x1 : S3200x588.Slices ![0, 224] S3200x1
  slices_S3787_o363_S3200 : S3787.Slices ![363] S3200
  slices_S3200x588_o0_225_S3200x1 : S3200x588.Slices ![0, 225] S3200x1
  slices_S3787_o362_S3200 : S3787.Slices ![362] S3200
  slices_S3200x588_o0_226_S3200x1 : S3200x588.Slices ![0, 226] S3200x1
  slices_S3787_o361_S3200 : S3787.Slices ![361] S3200
  slices_S3200x588_o0_227_S3200x1 : S3200x588.Slices ![0, 227] S3200x1
  slices_S3787_o360_S3200 : S3787.Slices ![360] S3200
  slices_S3200x588_o0_228_S3200x1 : S3200x588.Slices ![0, 228] S3200x1
  slices_S3787_o359_S3200 : S3787.Slices ![359] S3200
  slices_S3200x588_o0_229_S3200x1 : S3200x588.Slices ![0, 229] S3200x1
  slices_S3787_o358_S3200 : S3787.Slices ![358] S3200
  slices_S3200x588_o0_230_S3200x1 : S3200x588.Slices ![0, 230] S3200x1
  slices_S3787_o357_S3200 : S3787.Slices ![357] S3200
  slices_S3200x588_o0_231_S3200x1 : S3200x588.Slices ![0, 231] S3200x1
  slices_S3787_o356_S3200 : S3787.Slices ![356] S3200
  slices_S3200x588_o0_232_S3200x1 : S3200x588.Slices ![0, 232] S3200x1
  slices_S3787_o355_S3200 : S3787.Slices ![355] S3200
  slices_S3200x588_o0_233_S3200x1 : S3200x588.Slices ![0, 233] S3200x1
  slices_S3787_o354_S3200 : S3787.Slices ![354] S3200
  slices_S3200x588_o0_234_S3200x1 : S3200x588.Slices ![0, 234] S3200x1
  slices_S3787_o353_S3200 : S3787.Slices ![353] S3200
  slices_S3200x588_o0_235_S3200x1 : S3200x588.Slices ![0, 235] S3200x1
  slices_S3787_o352_S3200 : S3787.Slices ![352] S3200
  slices_S3200x588_o0_236_S3200x1 : S3200x588.Slices ![0, 236] S3200x1
  slices_S3787_o351_S3200 : S3787.Slices ![351] S3200
  slices_S3200x588_o0_237_S3200x1 : S3200x588.Slices ![0, 237] S3200x1
  slices_S3787_o350_S3200 : S3787.Slices ![350] S3200
  slices_S3200x588_o0_238_S3200x1 : S3200x588.Slices ![0, 238] S3200x1
  slices_S3787_o349_S3200 : S3787.Slices ![349] S3200
  slices_S3200x588_o0_239_S3200x1 : S3200x588.Slices ![0, 239] S3200x1
  slices_S3787_o348_S3200 : S3787.Slices ![348] S3200
  slices_S3200x588_o0_240_S3200x1 : S3200x588.Slices ![0, 240] S3200x1
  slices_S3787_o347_S3200 : S3787.Slices ![347] S3200
  slices_S3200x588_o0_241_S3200x1 : S3200x588.Slices ![0, 241] S3200x1
  slices_S3787_o346_S3200 : S3787.Slices ![346] S3200
  slices_S3200x588_o0_242_S3200x1 : S3200x588.Slices ![0, 242] S3200x1
  slices_S3787_o345_S3200 : S3787.Slices ![345] S3200
  slices_S3200x588_o0_243_S3200x1 : S3200x588.Slices ![0, 243] S3200x1
  slices_S3787_o344_S3200 : S3787.Slices ![344] S3200
  slices_S3200x588_o0_244_S3200x1 : S3200x588.Slices ![0, 244] S3200x1
  slices_S3787_o343_S3200 : S3787.Slices ![343] S3200
  slices_S3200x588_o0_245_S3200x1 : S3200x588.Slices ![0, 245] S3200x1
  slices_S3787_o342_S3200 : S3787.Slices ![342] S3200
  slices_S3200x588_o0_246_S3200x1 : S3200x588.Slices ![0, 246] S3200x1
  slices_S3787_o341_S3200 : S3787.Slices ![341] S3200
  slices_S3200x588_o0_247_S3200x1 : S3200x588.Slices ![0, 247] S3200x1
  slices_S3787_o340_S3200 : S3787.Slices ![340] S3200
  slices_S3200x588_o0_248_S3200x1 : S3200x588.Slices ![0, 248] S3200x1
  slices_S3787_o339_S3200 : S3787.Slices ![339] S3200
  slices_S3200x588_o0_249_S3200x1 : S3200x588.Slices ![0, 249] S3200x1
  slices_S3787_o338_S3200 : S3787.Slices ![338] S3200
  slices_S3200x588_o0_250_S3200x1 : S3200x588.Slices ![0, 250] S3200x1
  slices_S3787_o337_S3200 : S3787.Slices ![337] S3200
  slices_S3200x588_o0_251_S3200x1 : S3200x588.Slices ![0, 251] S3200x1
  slices_S3787_o336_S3200 : S3787.Slices ![336] S3200
  slices_S3200x588_o0_252_S3200x1 : S3200x588.Slices ![0, 252] S3200x1
  slices_S3787_o335_S3200 : S3787.Slices ![335] S3200
  slices_S3200x588_o0_253_S3200x1 : S3200x588.Slices ![0, 253] S3200x1
  slices_S3787_o334_S3200 : S3787.Slices ![334] S3200
  slices_S3200x588_o0_254_S3200x1 : S3200x588.Slices ![0, 254] S3200x1
  slices_S3787_o333_S3200 : S3787.Slices ![333] S3200
  slices_S3200x588_o0_255_S3200x1 : S3200x588.Slices ![0, 255] S3200x1
  slices_S3787_o332_S3200 : S3787.Slices ![332] S3200
  slices_S3200x588_o0_256_S3200x1 : S3200x588.Slices ![0, 256] S3200x1
  slices_S3787_o331_S3200 : S3787.Slices ![331] S3200
  slices_S3200x588_o0_257_S3200x1 : S3200x588.Slices ![0, 257] S3200x1
  slices_S3787_o330_S3200 : S3787.Slices ![330] S3200
  slices_S3200x588_o0_258_S3200x1 : S3200x588.Slices ![0, 258] S3200x1
  slices_S3787_o329_S3200 : S3787.Slices ![329] S3200
  slices_S3200x588_o0_259_S3200x1 : S3200x588.Slices ![0, 259] S3200x1
  slices_S3787_o328_S3200 : S3787.Slices ![328] S3200
  slices_S3200x588_o0_260_S3200x1 : S3200x588.Slices ![0, 260] S3200x1
  slices_S3787_o327_S3200 : S3787.Slices ![327] S3200
  slices_S3200x588_o0_261_S3200x1 : S3200x588.Slices ![0, 261] S3200x1
  slices_S3787_o326_S3200 : S3787.Slices ![326] S3200
  slices_S3200x588_o0_262_S3200x1 : S3200x588.Slices ![0, 262] S3200x1
  slices_S3787_o325_S3200 : S3787.Slices ![325] S3200
  slices_S3200x588_o0_263_S3200x1 : S3200x588.Slices ![0, 263] S3200x1
  slices_S3787_o324_S3200 : S3787.Slices ![324] S3200
  slices_S3200x588_o0_264_S3200x1 : S3200x588.Slices ![0, 264] S3200x1
  slices_S3787_o323_S3200 : S3787.Slices ![323] S3200
  slices_S3200x588_o0_265_S3200x1 : S3200x588.Slices ![0, 265] S3200x1
  slices_S3787_o322_S3200 : S3787.Slices ![322] S3200
  slices_S3200x588_o0_266_S3200x1 : S3200x588.Slices ![0, 266] S3200x1
  slices_S3787_o321_S3200 : S3787.Slices ![321] S3200
  slices_S3200x588_o0_267_S3200x1 : S3200x588.Slices ![0, 267] S3200x1
  slices_S3787_o320_S3200 : S3787.Slices ![320] S3200
  slices_S3200x588_o0_268_S3200x1 : S3200x588.Slices ![0, 268] S3200x1
  slices_S3787_o319_S3200 : S3787.Slices ![319] S3200
  slices_S3200x588_o0_269_S3200x1 : S3200x588.Slices ![0, 269] S3200x1
  slices_S3787_o318_S3200 : S3787.Slices ![318] S3200
  slices_S3200x588_o0_270_S3200x1 : S3200x588.Slices ![0, 270] S3200x1
  slices_S3787_o317_S3200 : S3787.Slices ![317] S3200
  slices_S3200x588_o0_271_S3200x1 : S3200x588.Slices ![0, 271] S3200x1
  slices_S3787_o316_S3200 : S3787.Slices ![316] S3200
  slices_S3200x588_o0_272_S3200x1 : S3200x588.Slices ![0, 272] S3200x1
  slices_S3787_o315_S3200 : S3787.Slices ![315] S3200
  slices_S3200x588_o0_273_S3200x1 : S3200x588.Slices ![0, 273] S3200x1
  slices_S3787_o314_S3200 : S3787.Slices ![314] S3200
  slices_S3200x588_o0_274_S3200x1 : S3200x588.Slices ![0, 274] S3200x1
  slices_S3787_o313_S3200 : S3787.Slices ![313] S3200
  slices_S3200x588_o0_275_S3200x1 : S3200x588.Slices ![0, 275] S3200x1
  slices_S3787_o312_S3200 : S3787.Slices ![312] S3200
  slices_S3200x588_o0_276_S3200x1 : S3200x588.Slices ![0, 276] S3200x1
  slices_S3787_o311_S3200 : S3787.Slices ![311] S3200
  slices_S3200x588_o0_277_S3200x1 : S3200x588.Slices ![0, 277] S3200x1
  slices_S3787_o310_S3200 : S3787.Slices ![310] S3200
  slices_S3200x588_o0_278_S3200x1 : S3200x588.Slices ![0, 278] S3200x1
  slices_S3787_o309_S3200 : S3787.Slices ![309] S3200
  slices_S3200x588_o0_279_S3200x1 : S3200x588.Slices ![0, 279] S3200x1
  slices_S3787_o308_S3200 : S3787.Slices ![308] S3200
  slices_S3200x588_o0_280_S3200x1 : S3200x588.Slices ![0, 280] S3200x1
  slices_S3787_o307_S3200 : S3787.Slices ![307] S3200
  slices_S3200x588_o0_281_S3200x1 : S3200x588.Slices ![0, 281] S3200x1
  slices_S3787_o306_S3200 : S3787.Slices ![306] S3200
  slices_S3200x588_o0_282_S3200x1 : S3200x588.Slices ![0, 282] S3200x1
  slices_S3787_o305_S3200 : S3787.Slices ![305] S3200
  slices_S3200x588_o0_283_S3200x1 : S3200x588.Slices ![0, 283] S3200x1
  slices_S3787_o304_S3200 : S3787.Slices ![304] S3200
  slices_S3200x588_o0_284_S3200x1 : S3200x588.Slices ![0, 284] S3200x1
  slices_S3787_o303_S3200 : S3787.Slices ![303] S3200
  slices_S3200x588_o0_285_S3200x1 : S3200x588.Slices ![0, 285] S3200x1
  slices_S3787_o302_S3200 : S3787.Slices ![302] S3200
  slices_S3200x588_o0_286_S3200x1 : S3200x588.Slices ![0, 286] S3200x1
  slices_S3787_o301_S3200 : S3787.Slices ![301] S3200
  slices_S3200x588_o0_287_S3200x1 : S3200x588.Slices ![0, 287] S3200x1
  slices_S3787_o300_S3200 : S3787.Slices ![300] S3200
  slices_S3200x588_o0_288_S3200x1 : S3200x588.Slices ![0, 288] S3200x1
  slices_S3787_o299_S3200 : S3787.Slices ![299] S3200
  slices_S3200x588_o0_289_S3200x1 : S3200x588.Slices ![0, 289] S3200x1
  slices_S3787_o298_S3200 : S3787.Slices ![298] S3200
  slices_S3200x588_o0_290_S3200x1 : S3200x588.Slices ![0, 290] S3200x1
  slices_S3787_o297_S3200 : S3787.Slices ![297] S3200
  slices_S3200x588_o0_291_S3200x1 : S3200x588.Slices ![0, 291] S3200x1
  slices_S3787_o296_S3200 : S3787.Slices ![296] S3200
  slices_S3200x588_o0_292_S3200x1 : S3200x588.Slices ![0, 292] S3200x1
  slices_S3787_o295_S3200 : S3787.Slices ![295] S3200
  slices_S3200x588_o0_293_S3200x1 : S3200x588.Slices ![0, 293] S3200x1
  slices_S3787_o294_S3200 : S3787.Slices ![294] S3200
  slices_S3200x588_o0_294_S3200x1 : S3200x588.Slices ![0, 294] S3200x1
  slices_S3787_o293_S3200 : S3787.Slices ![293] S3200
  slices_S3200x588_o0_295_S3200x1 : S3200x588.Slices ![0, 295] S3200x1
  slices_S3787_o292_S3200 : S3787.Slices ![292] S3200
  slices_S3200x588_o0_296_S3200x1 : S3200x588.Slices ![0, 296] S3200x1
  slices_S3787_o291_S3200 : S3787.Slices ![291] S3200
  slices_S3200x588_o0_297_S3200x1 : S3200x588.Slices ![0, 297] S3200x1
  slices_S3787_o290_S3200 : S3787.Slices ![290] S3200
  slices_S3200x588_o0_298_S3200x1 : S3200x588.Slices ![0, 298] S3200x1
  slices_S3787_o289_S3200 : S3787.Slices ![289] S3200
  slices_S3200x588_o0_299_S3200x1 : S3200x588.Slices ![0, 299] S3200x1
  slices_S3787_o288_S3200 : S3787.Slices ![288] S3200
  slices_S3200x588_o0_300_S3200x1 : S3200x588.Slices ![0, 300] S3200x1
  slices_S3787_o287_S3200 : S3787.Slices ![287] S3200
  slices_S3200x588_o0_301_S3200x1 : S3200x588.Slices ![0, 301] S3200x1
  slices_S3787_o286_S3200 : S3787.Slices ![286] S3200
  slices_S3200x588_o0_302_S3200x1 : S3200x588.Slices ![0, 302] S3200x1
  slices_S3787_o285_S3200 : S3787.Slices ![285] S3200
  slices_S3200x588_o0_303_S3200x1 : S3200x588.Slices ![0, 303] S3200x1
  slices_S3787_o284_S3200 : S3787.Slices ![284] S3200
  slices_S3200x588_o0_304_S3200x1 : S3200x588.Slices ![0, 304] S3200x1
  slices_S3787_o283_S3200 : S3787.Slices ![283] S3200
  slices_S3200x588_o0_305_S3200x1 : S3200x588.Slices ![0, 305] S3200x1
  slices_S3787_o282_S3200 : S3787.Slices ![282] S3200
  slices_S3200x588_o0_306_S3200x1 : S3200x588.Slices ![0, 306] S3200x1
  slices_S3787_o281_S3200 : S3787.Slices ![281] S3200
  slices_S3200x588_o0_307_S3200x1 : S3200x588.Slices ![0, 307] S3200x1
  slices_S3787_o280_S3200 : S3787.Slices ![280] S3200
  slices_S3200x588_o0_308_S3200x1 : S3200x588.Slices ![0, 308] S3200x1
  slices_S3787_o279_S3200 : S3787.Slices ![279] S3200
  slices_S3200x588_o0_309_S3200x1 : S3200x588.Slices ![0, 309] S3200x1
  slices_S3787_o278_S3200 : S3787.Slices ![278] S3200
  slices_S3200x588_o0_310_S3200x1 : S3200x588.Slices ![0, 310] S3200x1
  slices_S3787_o277_S3200 : S3787.Slices ![277] S3200
  slices_S3200x588_o0_311_S3200x1 : S3200x588.Slices ![0, 311] S3200x1
  slices_S3787_o276_S3200 : S3787.Slices ![276] S3200
  slices_S3200x588_o0_312_S3200x1 : S3200x588.Slices ![0, 312] S3200x1
  slices_S3787_o275_S3200 : S3787.Slices ![275] S3200
  slices_S3200x588_o0_313_S3200x1 : S3200x588.Slices ![0, 313] S3200x1
  slices_S3787_o274_S3200 : S3787.Slices ![274] S3200
  slices_S3200x588_o0_314_S3200x1 : S3200x588.Slices ![0, 314] S3200x1
  slices_S3787_o273_S3200 : S3787.Slices ![273] S3200
  slices_S3200x588_o0_315_S3200x1 : S3200x588.Slices ![0, 315] S3200x1
  slices_S3787_o272_S3200 : S3787.Slices ![272] S3200
  slices_S3200x588_o0_316_S3200x1 : S3200x588.Slices ![0, 316] S3200x1
  slices_S3787_o271_S3200 : S3787.Slices ![271] S3200
  slices_S3200x588_o0_317_S3200x1 : S3200x588.Slices ![0, 317] S3200x1
  slices_S3787_o270_S3200 : S3787.Slices ![270] S3200
  slices_S3200x588_o0_318_S3200x1 : S3200x588.Slices ![0, 318] S3200x1
  slices_S3787_o269_S3200 : S3787.Slices ![269] S3200
  slices_S3200x588_o0_319_S3200x1 : S3200x588.Slices ![0, 319] S3200x1
  slices_S3787_o268_S3200 : S3787.Slices ![268] S3200
  slices_S3200x588_o0_320_S3200x1 : S3200x588.Slices ![0, 320] S3200x1
  slices_S3787_o267_S3200 : S3787.Slices ![267] S3200
  slices_S3200x588_o0_321_S3200x1 : S3200x588.Slices ![0, 321] S3200x1
  slices_S3787_o266_S3200 : S3787.Slices ![266] S3200
  slices_S3200x588_o0_322_S3200x1 : S3200x588.Slices ![0, 322] S3200x1
  slices_S3787_o265_S3200 : S3787.Slices ![265] S3200
  slices_S3200x588_o0_323_S3200x1 : S3200x588.Slices ![0, 323] S3200x1
  slices_S3787_o264_S3200 : S3787.Slices ![264] S3200
  slices_S3200x588_o0_324_S3200x1 : S3200x588.Slices ![0, 324] S3200x1
  slices_S3787_o263_S3200 : S3787.Slices ![263] S3200
  slices_S3200x588_o0_325_S3200x1 : S3200x588.Slices ![0, 325] S3200x1
  slices_S3787_o262_S3200 : S3787.Slices ![262] S3200
  slices_S3200x588_o0_326_S3200x1 : S3200x588.Slices ![0, 326] S3200x1
  slices_S3787_o261_S3200 : S3787.Slices ![261] S3200
  slices_S3200x588_o0_327_S3200x1 : S3200x588.Slices ![0, 327] S3200x1
  slices_S3787_o260_S3200 : S3787.Slices ![260] S3200
  slices_S3200x588_o0_328_S3200x1 : S3200x588.Slices ![0, 328] S3200x1
  slices_S3787_o259_S3200 : S3787.Slices ![259] S3200
  slices_S3200x588_o0_329_S3200x1 : S3200x588.Slices ![0, 329] S3200x1
  slices_S3787_o258_S3200 : S3787.Slices ![258] S3200
  slices_S3200x588_o0_330_S3200x1 : S3200x588.Slices ![0, 330] S3200x1
  slices_S3787_o257_S3200 : S3787.Slices ![257] S3200
  slices_S3200x588_o0_331_S3200x1 : S3200x588.Slices ![0, 331] S3200x1
  slices_S3787_o256_S3200 : S3787.Slices ![256] S3200
  slices_S3200x588_o0_332_S3200x1 : S3200x588.Slices ![0, 332] S3200x1
  slices_S3787_o255_S3200 : S3787.Slices ![255] S3200
  slices_S3200x588_o0_333_S3200x1 : S3200x588.Slices ![0, 333] S3200x1
  slices_S3787_o254_S3200 : S3787.Slices ![254] S3200
  slices_S3200x588_o0_334_S3200x1 : S3200x588.Slices ![0, 334] S3200x1
  slices_S3787_o253_S3200 : S3787.Slices ![253] S3200
  slices_S3200x588_o0_335_S3200x1 : S3200x588.Slices ![0, 335] S3200x1
  slices_S3787_o252_S3200 : S3787.Slices ![252] S3200
  slices_S3200x588_o0_336_S3200x1 : S3200x588.Slices ![0, 336] S3200x1
  slices_S3787_o251_S3200 : S3787.Slices ![251] S3200
  slices_S3200x588_o0_337_S3200x1 : S3200x588.Slices ![0, 337] S3200x1
  slices_S3787_o250_S3200 : S3787.Slices ![250] S3200
  slices_S3200x588_o0_338_S3200x1 : S3200x588.Slices ![0, 338] S3200x1
  slices_S3787_o249_S3200 : S3787.Slices ![249] S3200
  slices_S3200x588_o0_339_S3200x1 : S3200x588.Slices ![0, 339] S3200x1
  slices_S3787_o248_S3200 : S3787.Slices ![248] S3200
  slices_S3200x588_o0_340_S3200x1 : S3200x588.Slices ![0, 340] S3200x1
  slices_S3787_o247_S3200 : S3787.Slices ![247] S3200
  slices_S3200x588_o0_341_S3200x1 : S3200x588.Slices ![0, 341] S3200x1
  slices_S3787_o246_S3200 : S3787.Slices ![246] S3200
  slices_S3200x588_o0_342_S3200x1 : S3200x588.Slices ![0, 342] S3200x1
  slices_S3787_o245_S3200 : S3787.Slices ![245] S3200
  slices_S3200x588_o0_343_S3200x1 : S3200x588.Slices ![0, 343] S3200x1
  slices_S3787_o244_S3200 : S3787.Slices ![244] S3200
  slices_S3200x588_o0_344_S3200x1 : S3200x588.Slices ![0, 344] S3200x1
  slices_S3787_o243_S3200 : S3787.Slices ![243] S3200
  slices_S3200x588_o0_345_S3200x1 : S3200x588.Slices ![0, 345] S3200x1
  slices_S3787_o242_S3200 : S3787.Slices ![242] S3200
  slices_S3200x588_o0_346_S3200x1 : S3200x588.Slices ![0, 346] S3200x1
  slices_S3787_o241_S3200 : S3787.Slices ![241] S3200
  slices_S3200x588_o0_347_S3200x1 : S3200x588.Slices ![0, 347] S3200x1
  slices_S3787_o240_S3200 : S3787.Slices ![240] S3200
  slices_S3200x588_o0_348_S3200x1 : S3200x588.Slices ![0, 348] S3200x1
  slices_S3787_o239_S3200 : S3787.Slices ![239] S3200
  slices_S3200x588_o0_349_S3200x1 : S3200x588.Slices ![0, 349] S3200x1
  slices_S3787_o238_S3200 : S3787.Slices ![238] S3200
  slices_S3200x588_o0_350_S3200x1 : S3200x588.Slices ![0, 350] S3200x1
  slices_S3787_o237_S3200 : S3787.Slices ![237] S3200
  slices_S3200x588_o0_351_S3200x1 : S3200x588.Slices ![0, 351] S3200x1
  slices_S3787_o236_S3200 : S3787.Slices ![236] S3200
  slices_S3200x588_o0_352_S3200x1 : S3200x588.Slices ![0, 352] S3200x1
  slices_S3787_o235_S3200 : S3787.Slices ![235] S3200
  slices_S3200x588_o0_353_S3200x1 : S3200x588.Slices ![0, 353] S3200x1
  slices_S3787_o234_S3200 : S3787.Slices ![234] S3200
  slices_S3200x588_o0_354_S3200x1 : S3200x588.Slices ![0, 354] S3200x1
  slices_S3787_o233_S3200 : S3787.Slices ![233] S3200
  slices_S3200x588_o0_355_S3200x1 : S3200x588.Slices ![0, 355] S3200x1
  slices_S3787_o232_S3200 : S3787.Slices ![232] S3200
  slices_S3200x588_o0_356_S3200x1 : S3200x588.Slices ![0, 356] S3200x1
  slices_S3787_o231_S3200 : S3787.Slices ![231] S3200
  slices_S3200x588_o0_357_S3200x1 : S3200x588.Slices ![0, 357] S3200x1
  slices_S3787_o230_S3200 : S3787.Slices ![230] S3200
  slices_S3200x588_o0_358_S3200x1 : S3200x588.Slices ![0, 358] S3200x1
  slices_S3787_o229_S3200 : S3787.Slices ![229] S3200
  slices_S3200x588_o0_359_S3200x1 : S3200x588.Slices ![0, 359] S3200x1
  slices_S3787_o228_S3200 : S3787.Slices ![228] S3200
  slices_S3200x588_o0_360_S3200x1 : S3200x588.Slices ![0, 360] S3200x1
  slices_S3787_o227_S3200 : S3787.Slices ![227] S3200
  slices_S3200x588_o0_361_S3200x1 : S3200x588.Slices ![0, 361] S3200x1
  slices_S3787_o226_S3200 : S3787.Slices ![226] S3200
  slices_S3200x588_o0_362_S3200x1 : S3200x588.Slices ![0, 362] S3200x1
  slices_S3787_o225_S3200 : S3787.Slices ![225] S3200
  slices_S3200x588_o0_363_S3200x1 : S3200x588.Slices ![0, 363] S3200x1
  slices_S3787_o224_S3200 : S3787.Slices ![224] S3200
  slices_S3200x588_o0_364_S3200x1 : S3200x588.Slices ![0, 364] S3200x1
  slices_S3787_o223_S3200 : S3787.Slices ![223] S3200
  slices_S3200x588_o0_365_S3200x1 : S3200x588.Slices ![0, 365] S3200x1
  slices_S3787_o222_S3200 : S3787.Slices ![222] S3200
  slices_S3200x588_o0_366_S3200x1 : S3200x588.Slices ![0, 366] S3200x1
  slices_S3787_o221_S3200 : S3787.Slices ![221] S3200
  slices_S3200x588_o0_367_S3200x1 : S3200x588.Slices ![0, 367] S3200x1
  slices_S3787_o220_S3200 : S3787.Slices ![220] S3200
  slices_S3200x588_o0_368_S3200x1 : S3200x588.Slices ![0, 368] S3200x1
  slices_S3787_o219_S3200 : S3787.Slices ![219] S3200
  slices_S3200x588_o0_369_S3200x1 : S3200x588.Slices ![0, 369] S3200x1
  slices_S3787_o218_S3200 : S3787.Slices ![218] S3200
  slices_S3200x588_o0_370_S3200x1 : S3200x588.Slices ![0, 370] S3200x1
  slices_S3787_o217_S3200 : S3787.Slices ![217] S3200
  slices_S3200x588_o0_371_S3200x1 : S3200x588.Slices ![0, 371] S3200x1
  slices_S3787_o216_S3200 : S3787.Slices ![216] S3200
  slices_S3200x588_o0_372_S3200x1 : S3200x588.Slices ![0, 372] S3200x1
  slices_S3787_o215_S3200 : S3787.Slices ![215] S3200
  slices_S3200x588_o0_373_S3200x1 : S3200x588.Slices ![0, 373] S3200x1
  slices_S3787_o214_S3200 : S3787.Slices ![214] S3200
  slices_S3200x588_o0_374_S3200x1 : S3200x588.Slices ![0, 374] S3200x1
  slices_S3787_o213_S3200 : S3787.Slices ![213] S3200
  slices_S3200x588_o0_375_S3200x1 : S3200x588.Slices ![0, 375] S3200x1
  slices_S3787_o212_S3200 : S3787.Slices ![212] S3200
  slices_S3200x588_o0_376_S3200x1 : S3200x588.Slices ![0, 376] S3200x1
  slices_S3787_o211_S3200 : S3787.Slices ![211] S3200
  slices_S3200x588_o0_377_S3200x1 : S3200x588.Slices ![0, 377] S3200x1
  slices_S3787_o210_S3200 : S3787.Slices ![210] S3200
  slices_S3200x588_o0_378_S3200x1 : S3200x588.Slices ![0, 378] S3200x1
  slices_S3787_o209_S3200 : S3787.Slices ![209] S3200
  slices_S3200x588_o0_379_S3200x1 : S3200x588.Slices ![0, 379] S3200x1
  slices_S3787_o208_S3200 : S3787.Slices ![208] S3200
  slices_S3200x588_o0_380_S3200x1 : S3200x588.Slices ![0, 380] S3200x1
  slices_S3787_o207_S3200 : S3787.Slices ![207] S3200
  slices_S3200x588_o0_381_S3200x1 : S3200x588.Slices ![0, 381] S3200x1
  slices_S3787_o206_S3200 : S3787.Slices ![206] S3200
  slices_S3200x588_o0_382_S3200x1 : S3200x588.Slices ![0, 382] S3200x1
  slices_S3787_o205_S3200 : S3787.Slices ![205] S3200
  slices_S3200x588_o0_383_S3200x1 : S3200x588.Slices ![0, 383] S3200x1
  slices_S3787_o204_S3200 : S3787.Slices ![204] S3200
  slices_S3200x588_o0_384_S3200x1 : S3200x588.Slices ![0, 384] S3200x1
  slices_S3787_o203_S3200 : S3787.Slices ![203] S3200
  slices_S3200x588_o0_385_S3200x1 : S3200x588.Slices ![0, 385] S3200x1
  slices_S3787_o202_S3200 : S3787.Slices ![202] S3200
  slices_S3200x588_o0_386_S3200x1 : S3200x588.Slices ![0, 386] S3200x1
  slices_S3787_o201_S3200 : S3787.Slices ![201] S3200
  slices_S3200x588_o0_387_S3200x1 : S3200x588.Slices ![0, 387] S3200x1
  slices_S3787_o200_S3200 : S3787.Slices ![200] S3200
  slices_S3200x588_o0_388_S3200x1 : S3200x588.Slices ![0, 388] S3200x1
  slices_S3787_o199_S3200 : S3787.Slices ![199] S3200
  slices_S3200x588_o0_389_S3200x1 : S3200x588.Slices ![0, 389] S3200x1
  slices_S3787_o198_S3200 : S3787.Slices ![198] S3200
  slices_S3200x588_o0_390_S3200x1 : S3200x588.Slices ![0, 390] S3200x1
  slices_S3787_o197_S3200 : S3787.Slices ![197] S3200
  slices_S3200x588_o0_391_S3200x1 : S3200x588.Slices ![0, 391] S3200x1
  slices_S3787_o196_S3200 : S3787.Slices ![196] S3200
  slices_S3200x588_o0_392_S3200x1 : S3200x588.Slices ![0, 392] S3200x1
  slices_S3787_o195_S3200 : S3787.Slices ![195] S3200
  slices_S3200x588_o0_393_S3200x1 : S3200x588.Slices ![0, 393] S3200x1
  slices_S3787_o194_S3200 : S3787.Slices ![194] S3200
  slices_S3200x588_o0_394_S3200x1 : S3200x588.Slices ![0, 394] S3200x1
  slices_S3787_o193_S3200 : S3787.Slices ![193] S3200
  slices_S3200x588_o0_395_S3200x1 : S3200x588.Slices ![0, 395] S3200x1
  slices_S3787_o192_S3200 : S3787.Slices ![192] S3200
  slices_S3200x588_o0_396_S3200x1 : S3200x588.Slices ![0, 396] S3200x1
  slices_S3787_o191_S3200 : S3787.Slices ![191] S3200
  slices_S3200x588_o0_397_S3200x1 : S3200x588.Slices ![0, 397] S3200x1
  slices_S3787_o190_S3200 : S3787.Slices ![190] S3200
  slices_S3200x588_o0_398_S3200x1 : S3200x588.Slices ![0, 398] S3200x1
  slices_S3787_o189_S3200 : S3787.Slices ![189] S3200
  slices_S3200x588_o0_399_S3200x1 : S3200x588.Slices ![0, 399] S3200x1
  slices_S3787_o188_S3200 : S3787.Slices ![188] S3200
  slices_S3200x588_o0_400_S3200x1 : S3200x588.Slices ![0, 400] S3200x1
  slices_S3787_o187_S3200 : S3787.Slices ![187] S3200
  slices_S3200x588_o0_401_S3200x1 : S3200x588.Slices ![0, 401] S3200x1
  slices_S3787_o186_S3200 : S3787.Slices ![186] S3200
  slices_S3200x588_o0_402_S3200x1 : S3200x588.Slices ![0, 402] S3200x1
  slices_S3787_o185_S3200 : S3787.Slices ![185] S3200
  slices_S3200x588_o0_403_S3200x1 : S3200x588.Slices ![0, 403] S3200x1
  slices_S3787_o184_S3200 : S3787.Slices ![184] S3200
  slices_S3200x588_o0_404_S3200x1 : S3200x588.Slices ![0, 404] S3200x1
  slices_S3787_o183_S3200 : S3787.Slices ![183] S3200
  slices_S3200x588_o0_405_S3200x1 : S3200x588.Slices ![0, 405] S3200x1
  slices_S3787_o182_S3200 : S3787.Slices ![182] S3200
  slices_S3200x588_o0_406_S3200x1 : S3200x588.Slices ![0, 406] S3200x1
  slices_S3787_o181_S3200 : S3787.Slices ![181] S3200
  slices_S3200x588_o0_407_S3200x1 : S3200x588.Slices ![0, 407] S3200x1
  slices_S3787_o180_S3200 : S3787.Slices ![180] S3200
  slices_S3200x588_o0_408_S3200x1 : S3200x588.Slices ![0, 408] S3200x1
  slices_S3787_o179_S3200 : S3787.Slices ![179] S3200
  slices_S3200x588_o0_409_S3200x1 : S3200x588.Slices ![0, 409] S3200x1
  slices_S3787_o178_S3200 : S3787.Slices ![178] S3200
  slices_S3200x588_o0_410_S3200x1 : S3200x588.Slices ![0, 410] S3200x1
  slices_S3787_o177_S3200 : S3787.Slices ![177] S3200
  slices_S3200x588_o0_411_S3200x1 : S3200x588.Slices ![0, 411] S3200x1
  slices_S3787_o176_S3200 : S3787.Slices ![176] S3200
  slices_S3200x588_o0_412_S3200x1 : S3200x588.Slices ![0, 412] S3200x1
  slices_S3787_o175_S3200 : S3787.Slices ![175] S3200
  slices_S3200x588_o0_413_S3200x1 : S3200x588.Slices ![0, 413] S3200x1
  slices_S3787_o174_S3200 : S3787.Slices ![174] S3200
  slices_S3200x588_o0_414_S3200x1 : S3200x588.Slices ![0, 414] S3200x1
  slices_S3787_o173_S3200 : S3787.Slices ![173] S3200
  slices_S3200x588_o0_415_S3200x1 : S3200x588.Slices ![0, 415] S3200x1
  slices_S3787_o172_S3200 : S3787.Slices ![172] S3200
  slices_S3200x588_o0_416_S3200x1 : S3200x588.Slices ![0, 416] S3200x1
  slices_S3787_o171_S3200 : S3787.Slices ![171] S3200
  slices_S3200x588_o0_417_S3200x1 : S3200x588.Slices ![0, 417] S3200x1
  slices_S3787_o170_S3200 : S3787.Slices ![170] S3200
  slices_S3200x588_o0_418_S3200x1 : S3200x588.Slices ![0, 418] S3200x1
  slices_S3787_o169_S3200 : S3787.Slices ![169] S3200
  slices_S3200x588_o0_419_S3200x1 : S3200x588.Slices ![0, 419] S3200x1
  slices_S3787_o168_S3200 : S3787.Slices ![168] S3200
  slices_S3200x588_o0_420_S3200x1 : S3200x588.Slices ![0, 420] S3200x1
  slices_S3787_o167_S3200 : S3787.Slices ![167] S3200
  slices_S3200x588_o0_421_S3200x1 : S3200x588.Slices ![0, 421] S3200x1
  slices_S3787_o166_S3200 : S3787.Slices ![166] S3200
  slices_S3200x588_o0_422_S3200x1 : S3200x588.Slices ![0, 422] S3200x1
  slices_S3787_o165_S3200 : S3787.Slices ![165] S3200
  slices_S3200x588_o0_423_S3200x1 : S3200x588.Slices ![0, 423] S3200x1
  slices_S3787_o164_S3200 : S3787.Slices ![164] S3200
  slices_S3200x588_o0_424_S3200x1 : S3200x588.Slices ![0, 424] S3200x1
  slices_S3787_o163_S3200 : S3787.Slices ![163] S3200
  slices_S3200x588_o0_425_S3200x1 : S3200x588.Slices ![0, 425] S3200x1
  slices_S3787_o162_S3200 : S3787.Slices ![162] S3200
  slices_S3200x588_o0_426_S3200x1 : S3200x588.Slices ![0, 426] S3200x1
  slices_S3787_o161_S3200 : S3787.Slices ![161] S3200
  slices_S3200x588_o0_427_S3200x1 : S3200x588.Slices ![0, 427] S3200x1
  slices_S3787_o160_S3200 : S3787.Slices ![160] S3200
  slices_S3200x588_o0_428_S3200x1 : S3200x588.Slices ![0, 428] S3200x1
  slices_S3787_o159_S3200 : S3787.Slices ![159] S3200
  slices_S3200x588_o0_429_S3200x1 : S3200x588.Slices ![0, 429] S3200x1
  slices_S3787_o158_S3200 : S3787.Slices ![158] S3200
  slices_S3200x588_o0_430_S3200x1 : S3200x588.Slices ![0, 430] S3200x1
  slices_S3787_o157_S3200 : S3787.Slices ![157] S3200
  slices_S3200x588_o0_431_S3200x1 : S3200x588.Slices ![0, 431] S3200x1
  slices_S3787_o156_S3200 : S3787.Slices ![156] S3200
  slices_S3200x588_o0_432_S3200x1 : S3200x588.Slices ![0, 432] S3200x1
  slices_S3787_o155_S3200 : S3787.Slices ![155] S3200
  slices_S3200x588_o0_433_S3200x1 : S3200x588.Slices ![0, 433] S3200x1
  slices_S3787_o154_S3200 : S3787.Slices ![154] S3200
  slices_S3200x588_o0_434_S3200x1 : S3200x588.Slices ![0, 434] S3200x1
  slices_S3787_o153_S3200 : S3787.Slices ![153] S3200
  slices_S3200x588_o0_435_S3200x1 : S3200x588.Slices ![0, 435] S3200x1
  slices_S3787_o152_S3200 : S3787.Slices ![152] S3200
  slices_S3200x588_o0_436_S3200x1 : S3200x588.Slices ![0, 436] S3200x1
  slices_S3787_o151_S3200 : S3787.Slices ![151] S3200
  slices_S3200x588_o0_437_S3200x1 : S3200x588.Slices ![0, 437] S3200x1
  slices_S3787_o150_S3200 : S3787.Slices ![150] S3200
  slices_S3200x588_o0_438_S3200x1 : S3200x588.Slices ![0, 438] S3200x1
  slices_S3787_o149_S3200 : S3787.Slices ![149] S3200
  slices_S3200x588_o0_439_S3200x1 : S3200x588.Slices ![0, 439] S3200x1
  slices_S3787_o148_S3200 : S3787.Slices ![148] S3200
  slices_S3200x588_o0_440_S3200x1 : S3200x588.Slices ![0, 440] S3200x1
  slices_S3787_o147_S3200 : S3787.Slices ![147] S3200
  slices_S3200x588_o0_441_S3200x1 : S3200x588.Slices ![0, 441] S3200x1
  slices_S3787_o146_S3200 : S3787.Slices ![146] S3200
  slices_S3200x588_o0_442_S3200x1 : S3200x588.Slices ![0, 442] S3200x1
  slices_S3787_o145_S3200 : S3787.Slices ![145] S3200
  slices_S3200x588_o0_443_S3200x1 : S3200x588.Slices ![0, 443] S3200x1
  slices_S3787_o144_S3200 : S3787.Slices ![144] S3200
  slices_S3200x588_o0_444_S3200x1 : S3200x588.Slices ![0, 444] S3200x1
  slices_S3787_o143_S3200 : S3787.Slices ![143] S3200
  slices_S3200x588_o0_445_S3200x1 : S3200x588.Slices ![0, 445] S3200x1
  slices_S3787_o142_S3200 : S3787.Slices ![142] S3200
  slices_S3200x588_o0_446_S3200x1 : S3200x588.Slices ![0, 446] S3200x1
  slices_S3787_o141_S3200 : S3787.Slices ![141] S3200
  slices_S3200x588_o0_447_S3200x1 : S3200x588.Slices ![0, 447] S3200x1
  slices_S3787_o140_S3200 : S3787.Slices ![140] S3200
  slices_S3200x588_o0_448_S3200x1 : S3200x588.Slices ![0, 448] S3200x1
  slices_S3787_o139_S3200 : S3787.Slices ![139] S3200
  slices_S3200x588_o0_449_S3200x1 : S3200x588.Slices ![0, 449] S3200x1
  slices_S3787_o138_S3200 : S3787.Slices ![138] S3200
  slices_S3200x588_o0_450_S3200x1 : S3200x588.Slices ![0, 450] S3200x1
  slices_S3787_o137_S3200 : S3787.Slices ![137] S3200
  slices_S3200x588_o0_451_S3200x1 : S3200x588.Slices ![0, 451] S3200x1
  slices_S3787_o136_S3200 : S3787.Slices ![136] S3200
  slices_S3200x588_o0_452_S3200x1 : S3200x588.Slices ![0, 452] S3200x1
  slices_S3787_o135_S3200 : S3787.Slices ![135] S3200
  slices_S3200x588_o0_453_S3200x1 : S3200x588.Slices ![0, 453] S3200x1
  slices_S3787_o134_S3200 : S3787.Slices ![134] S3200
  slices_S3200x588_o0_454_S3200x1 : S3200x588.Slices ![0, 454] S3200x1
  slices_S3787_o133_S3200 : S3787.Slices ![133] S3200
  slices_S3200x588_o0_455_S3200x1 : S3200x588.Slices ![0, 455] S3200x1
  slices_S3787_o132_S3200 : S3787.Slices ![132] S3200
  slices_S3200x588_o0_456_S3200x1 : S3200x588.Slices ![0, 456] S3200x1
  slices_S3787_o131_S3200 : S3787.Slices ![131] S3200
  slices_S3200x588_o0_457_S3200x1 : S3200x588.Slices ![0, 457] S3200x1
  slices_S3787_o130_S3200 : S3787.Slices ![130] S3200
  slices_S3200x588_o0_458_S3200x1 : S3200x588.Slices ![0, 458] S3200x1
  slices_S3787_o129_S3200 : S3787.Slices ![129] S3200
  slices_S3200x588_o0_459_S3200x1 : S3200x588.Slices ![0, 459] S3200x1
  slices_S3787_o128_S3200 : S3787.Slices ![128] S3200
  slices_S3200x588_o0_460_S3200x1 : S3200x588.Slices ![0, 460] S3200x1
  slices_S3787_o127_S3200 : S3787.Slices ![127] S3200
  slices_S3200x588_o0_461_S3200x1 : S3200x588.Slices ![0, 461] S3200x1
  slices_S3787_o126_S3200 : S3787.Slices ![126] S3200
  slices_S3200x588_o0_462_S3200x1 : S3200x588.Slices ![0, 462] S3200x1
  slices_S3787_o125_S3200 : S3787.Slices ![125] S3200
  slices_S3200x588_o0_463_S3200x1 : S3200x588.Slices ![0, 463] S3200x1
  slices_S3787_o124_S3200 : S3787.Slices ![124] S3200
  slices_S3200x588_o0_464_S3200x1 : S3200x588.Slices ![0, 464] S3200x1
  slices_S3787_o123_S3200 : S3787.Slices ![123] S3200
  slices_S3200x588_o0_465_S3200x1 : S3200x588.Slices ![0, 465] S3200x1
  slices_S3787_o122_S3200 : S3787.Slices ![122] S3200
  slices_S3200x588_o0_466_S3200x1 : S3200x588.Slices ![0, 466] S3200x1
  slices_S3787_o121_S3200 : S3787.Slices ![121] S3200
  slices_S3200x588_o0_467_S3200x1 : S3200x588.Slices ![0, 467] S3200x1
  slices_S3787_o120_S3200 : S3787.Slices ![120] S3200
  slices_S3200x588_o0_468_S3200x1 : S3200x588.Slices ![0, 468] S3200x1
  slices_S3787_o119_S3200 : S3787.Slices ![119] S3200
  slices_S3200x588_o0_469_S3200x1 : S3200x588.Slices ![0, 469] S3200x1
  slices_S3787_o118_S3200 : S3787.Slices ![118] S3200
  slices_S3200x588_o0_470_S3200x1 : S3200x588.Slices ![0, 470] S3200x1
  slices_S3787_o117_S3200 : S3787.Slices ![117] S3200
  slices_S3200x588_o0_471_S3200x1 : S3200x588.Slices ![0, 471] S3200x1
  slices_S3787_o116_S3200 : S3787.Slices ![116] S3200
  slices_S3200x588_o0_472_S3200x1 : S3200x588.Slices ![0, 472] S3200x1
  slices_S3787_o115_S3200 : S3787.Slices ![115] S3200
  slices_S3200x588_o0_473_S3200x1 : S3200x588.Slices ![0, 473] S3200x1
  slices_S3787_o114_S3200 : S3787.Slices ![114] S3200
  slices_S3200x588_o0_474_S3200x1 : S3200x588.Slices ![0, 474] S3200x1
  slices_S3787_o113_S3200 : S3787.Slices ![113] S3200
  slices_S3200x588_o0_475_S3200x1 : S3200x588.Slices ![0, 475] S3200x1
  slices_S3787_o112_S3200 : S3787.Slices ![112] S3200
  slices_S3200x588_o0_476_S3200x1 : S3200x588.Slices ![0, 476] S3200x1
  slices_S3787_o111_S3200 : S3787.Slices ![111] S3200
  slices_S3200x588_o0_477_S3200x1 : S3200x588.Slices ![0, 477] S3200x1
  slices_S3787_o110_S3200 : S3787.Slices ![110] S3200
  slices_S3200x588_o0_478_S3200x1 : S3200x588.Slices ![0, 478] S3200x1
  slices_S3787_o109_S3200 : S3787.Slices ![109] S3200
  slices_S3200x588_o0_479_S3200x1 : S3200x588.Slices ![0, 479] S3200x1
  slices_S3787_o108_S3200 : S3787.Slices ![108] S3200
  slices_S3200x588_o0_480_S3200x1 : S3200x588.Slices ![0, 480] S3200x1
  slices_S3787_o107_S3200 : S3787.Slices ![107] S3200
  slices_S3200x588_o0_481_S3200x1 : S3200x588.Slices ![0, 481] S3200x1
  slices_S3787_o106_S3200 : S3787.Slices ![106] S3200
  slices_S3200x588_o0_482_S3200x1 : S3200x588.Slices ![0, 482] S3200x1
  slices_S3787_o105_S3200 : S3787.Slices ![105] S3200
  slices_S3200x588_o0_483_S3200x1 : S3200x588.Slices ![0, 483] S3200x1
  slices_S3787_o104_S3200 : S3787.Slices ![104] S3200
  slices_S3200x588_o0_484_S3200x1 : S3200x588.Slices ![0, 484] S3200x1
  slices_S3787_o103_S3200 : S3787.Slices ![103] S3200
  slices_S3200x588_o0_485_S3200x1 : S3200x588.Slices ![0, 485] S3200x1
  slices_S3787_o102_S3200 : S3787.Slices ![102] S3200
  slices_S3200x588_o0_486_S3200x1 : S3200x588.Slices ![0, 486] S3200x1
  slices_S3787_o101_S3200 : S3787.Slices ![101] S3200
  slices_S3200x588_o0_487_S3200x1 : S3200x588.Slices ![0, 487] S3200x1
  slices_S3787_o100_S3200 : S3787.Slices ![100] S3200
  slices_S3200x588_o0_488_S3200x1 : S3200x588.Slices ![0, 488] S3200x1
  slices_S3787_o99_S3200 : S3787.Slices ![99] S3200
  slices_S3200x588_o0_489_S3200x1 : S3200x588.Slices ![0, 489] S3200x1
  slices_S3787_o98_S3200 : S3787.Slices ![98] S3200
  slices_S3200x588_o0_490_S3200x1 : S3200x588.Slices ![0, 490] S3200x1
  slices_S3787_o97_S3200 : S3787.Slices ![97] S3200
  slices_S3200x588_o0_491_S3200x1 : S3200x588.Slices ![0, 491] S3200x1
  slices_S3787_o96_S3200 : S3787.Slices ![96] S3200
  slices_S3200x588_o0_492_S3200x1 : S3200x588.Slices ![0, 492] S3200x1
  slices_S3787_o95_S3200 : S3787.Slices ![95] S3200
  slices_S3200x588_o0_493_S3200x1 : S3200x588.Slices ![0, 493] S3200x1
  slices_S3787_o94_S3200 : S3787.Slices ![94] S3200
  slices_S3200x588_o0_494_S3200x1 : S3200x588.Slices ![0, 494] S3200x1
  slices_S3787_o93_S3200 : S3787.Slices ![93] S3200
  slices_S3200x588_o0_495_S3200x1 : S3200x588.Slices ![0, 495] S3200x1
  slices_S3787_o92_S3200 : S3787.Slices ![92] S3200

class Shapes2.Facts₀ : Prop where
  slices_S3200x588_o0_496_S3200x1 : S3200x588.Slices ![0, 496] S3200x1
  slices_S3787_o91_S3200 : S3787.Slices ![91] S3200
  slices_S3200x588_o0_497_S3200x1 : S3200x588.Slices ![0, 497] S3200x1
  slices_S3787_o90_S3200 : S3787.Slices ![90] S3200
  slices_S3200x588_o0_498_S3200x1 : S3200x588.Slices ![0, 498] S3200x1
  slices_S3787_o89_S3200 : S3787.Slices ![89] S3200
  slices_S3200x588_o0_499_S3200x1 : S3200x588.Slices ![0, 499] S3200x1
  slices_S3787_o88_S3200 : S3787.Slices ![88] S3200
  slices_S3200x588_o0_500_S3200x1 : S3200x588.Slices ![0, 500] S3200x1
  slices_S3787_o87_S3200 : S3787.Slices ![87] S3200
  slices_S3200x588_o0_501_S3200x1 : S3200x588.Slices ![0, 501] S3200x1
  slices_S3787_o86_S3200 : S3787.Slices ![86] S3200
  slices_S3200x588_o0_502_S3200x1 : S3200x588.Slices ![0, 502] S3200x1
  slices_S3787_o85_S3200 : S3787.Slices ![85] S3200
  slices_S3200x588_o0_503_S3200x1 : S3200x588.Slices ![0, 503] S3200x1
  slices_S3787_o84_S3200 : S3787.Slices ![84] S3200
  slices_S3200x588_o0_504_S3200x1 : S3200x588.Slices ![0, 504] S3200x1
  slices_S3787_o83_S3200 : S3787.Slices ![83] S3200
  slices_S3200x588_o0_505_S3200x1 : S3200x588.Slices ![0, 505] S3200x1
  slices_S3787_o82_S3200 : S3787.Slices ![82] S3200
  slices_S3200x588_o0_506_S3200x1 : S3200x588.Slices ![0, 506] S3200x1
  slices_S3787_o81_S3200 : S3787.Slices ![81] S3200
  slices_S3200x588_o0_507_S3200x1 : S3200x588.Slices ![0, 507] S3200x1
  slices_S3787_o80_S3200 : S3787.Slices ![80] S3200
  slices_S3200x588_o0_508_S3200x1 : S3200x588.Slices ![0, 508] S3200x1
  slices_S3787_o79_S3200 : S3787.Slices ![79] S3200
  slices_S3200x588_o0_509_S3200x1 : S3200x588.Slices ![0, 509] S3200x1
  slices_S3787_o78_S3200 : S3787.Slices ![78] S3200
  slices_S3200x588_o0_510_S3200x1 : S3200x588.Slices ![0, 510] S3200x1
  slices_S3787_o77_S3200 : S3787.Slices ![77] S3200
  slices_S3200x588_o0_511_S3200x1 : S3200x588.Slices ![0, 511] S3200x1
  slices_S3787_o76_S3200 : S3787.Slices ![76] S3200
  slices_S3200x588_o0_512_S3200x1 : S3200x588.Slices ![0, 512] S3200x1
  slices_S3787_o75_S3200 : S3787.Slices ![75] S3200
  slices_S3200x588_o0_513_S3200x1 : S3200x588.Slices ![0, 513] S3200x1
  slices_S3787_o74_S3200 : S3787.Slices ![74] S3200
  slices_S3200x588_o0_514_S3200x1 : S3200x588.Slices ![0, 514] S3200x1
  slices_S3787_o73_S3200 : S3787.Slices ![73] S3200
  slices_S3200x588_o0_515_S3200x1 : S3200x588.Slices ![0, 515] S3200x1
  slices_S3787_o72_S3200 : S3787.Slices ![72] S3200
  slices_S3200x588_o0_516_S3200x1 : S3200x588.Slices ![0, 516] S3200x1
  slices_S3787_o71_S3200 : S3787.Slices ![71] S3200
  slices_S3200x588_o0_517_S3200x1 : S3200x588.Slices ![0, 517] S3200x1
  slices_S3787_o70_S3200 : S3787.Slices ![70] S3200
  slices_S3200x588_o0_518_S3200x1 : S3200x588.Slices ![0, 518] S3200x1
  slices_S3787_o69_S3200 : S3787.Slices ![69] S3200
  slices_S3200x588_o0_519_S3200x1 : S3200x588.Slices ![0, 519] S3200x1
  slices_S3787_o68_S3200 : S3787.Slices ![68] S3200
  slices_S3200x588_o0_520_S3200x1 : S3200x588.Slices ![0, 520] S3200x1
  slices_S3787_o67_S3200 : S3787.Slices ![67] S3200
  slices_S3200x588_o0_521_S3200x1 : S3200x588.Slices ![0, 521] S3200x1
  slices_S3787_o66_S3200 : S3787.Slices ![66] S3200
  slices_S3200x588_o0_522_S3200x1 : S3200x588.Slices ![0, 522] S3200x1
  slices_S3787_o65_S3200 : S3787.Slices ![65] S3200
  slices_S3200x588_o0_523_S3200x1 : S3200x588.Slices ![0, 523] S3200x1
  slices_S3787_o64_S3200 : S3787.Slices ![64] S3200
  slices_S3200x588_o0_524_S3200x1 : S3200x588.Slices ![0, 524] S3200x1
  slices_S3787_o63_S3200 : S3787.Slices ![63] S3200
  slices_S3200x588_o0_525_S3200x1 : S3200x588.Slices ![0, 525] S3200x1
  slices_S3787_o62_S3200 : S3787.Slices ![62] S3200
  slices_S3200x588_o0_526_S3200x1 : S3200x588.Slices ![0, 526] S3200x1
  slices_S3787_o61_S3200 : S3787.Slices ![61] S3200
  slices_S3200x588_o0_527_S3200x1 : S3200x588.Slices ![0, 527] S3200x1
  slices_S3787_o60_S3200 : S3787.Slices ![60] S3200
  slices_S3200x588_o0_528_S3200x1 : S3200x588.Slices ![0, 528] S3200x1
  slices_S3787_o59_S3200 : S3787.Slices ![59] S3200
  slices_S3200x588_o0_529_S3200x1 : S3200x588.Slices ![0, 529] S3200x1
  slices_S3787_o58_S3200 : S3787.Slices ![58] S3200
  slices_S3200x588_o0_530_S3200x1 : S3200x588.Slices ![0, 530] S3200x1
  slices_S3787_o57_S3200 : S3787.Slices ![57] S3200
  slices_S3200x588_o0_531_S3200x1 : S3200x588.Slices ![0, 531] S3200x1
  slices_S3787_o56_S3200 : S3787.Slices ![56] S3200
  slices_S3200x588_o0_532_S3200x1 : S3200x588.Slices ![0, 532] S3200x1
  slices_S3787_o55_S3200 : S3787.Slices ![55] S3200
  slices_S3200x588_o0_533_S3200x1 : S3200x588.Slices ![0, 533] S3200x1
  slices_S3787_o54_S3200 : S3787.Slices ![54] S3200
  slices_S3200x588_o0_534_S3200x1 : S3200x588.Slices ![0, 534] S3200x1
  slices_S3787_o53_S3200 : S3787.Slices ![53] S3200
  slices_S3200x588_o0_535_S3200x1 : S3200x588.Slices ![0, 535] S3200x1
  slices_S3787_o52_S3200 : S3787.Slices ![52] S3200
  slices_S3200x588_o0_536_S3200x1 : S3200x588.Slices ![0, 536] S3200x1
  slices_S3787_o51_S3200 : S3787.Slices ![51] S3200
  slices_S3200x588_o0_537_S3200x1 : S3200x588.Slices ![0, 537] S3200x1
  slices_S3787_o50_S3200 : S3787.Slices ![50] S3200
  slices_S3200x588_o0_538_S3200x1 : S3200x588.Slices ![0, 538] S3200x1
  slices_S3787_o49_S3200 : S3787.Slices ![49] S3200
  slices_S3200x588_o0_539_S3200x1 : S3200x588.Slices ![0, 539] S3200x1
  slices_S3787_o48_S3200 : S3787.Slices ![48] S3200
  slices_S3200x588_o0_540_S3200x1 : S3200x588.Slices ![0, 540] S3200x1
  slices_S3787_o47_S3200 : S3787.Slices ![47] S3200
  slices_S3200x588_o0_541_S3200x1 : S3200x588.Slices ![0, 541] S3200x1
  slices_S3787_o46_S3200 : S3787.Slices ![46] S3200
  slices_S3200x588_o0_542_S3200x1 : S3200x588.Slices ![0, 542] S3200x1
  slices_S3787_o45_S3200 : S3787.Slices ![45] S3200
  slices_S3200x588_o0_543_S3200x1 : S3200x588.Slices ![0, 543] S3200x1
  slices_S3787_o44_S3200 : S3787.Slices ![44] S3200
  slices_S3200x588_o0_544_S3200x1 : S3200x588.Slices ![0, 544] S3200x1
  slices_S3787_o43_S3200 : S3787.Slices ![43] S3200
  slices_S3200x588_o0_545_S3200x1 : S3200x588.Slices ![0, 545] S3200x1
  slices_S3787_o42_S3200 : S3787.Slices ![42] S3200
  slices_S3200x588_o0_546_S3200x1 : S3200x588.Slices ![0, 546] S3200x1
  slices_S3787_o41_S3200 : S3787.Slices ![41] S3200
  slices_S3200x588_o0_547_S3200x1 : S3200x588.Slices ![0, 547] S3200x1
  slices_S3787_o40_S3200 : S3787.Slices ![40] S3200
  slices_S3200x588_o0_548_S3200x1 : S3200x588.Slices ![0, 548] S3200x1
  slices_S3787_o39_S3200 : S3787.Slices ![39] S3200
  slices_S3200x588_o0_549_S3200x1 : S3200x588.Slices ![0, 549] S3200x1
  slices_S3787_o38_S3200 : S3787.Slices ![38] S3200
  slices_S3200x588_o0_550_S3200x1 : S3200x588.Slices ![0, 550] S3200x1
  slices_S3787_o37_S3200 : S3787.Slices ![37] S3200
  slices_S3200x588_o0_551_S3200x1 : S3200x588.Slices ![0, 551] S3200x1
  slices_S3787_o36_S3200 : S3787.Slices ![36] S3200
  slices_S3200x588_o0_552_S3200x1 : S3200x588.Slices ![0, 552] S3200x1
  slices_S3787_o35_S3200 : S3787.Slices ![35] S3200
  slices_S3200x588_o0_553_S3200x1 : S3200x588.Slices ![0, 553] S3200x1
  slices_S3787_o34_S3200 : S3787.Slices ![34] S3200
  slices_S3200x588_o0_554_S3200x1 : S3200x588.Slices ![0, 554] S3200x1
  slices_S3787_o33_S3200 : S3787.Slices ![33] S3200
  slices_S3200x588_o0_555_S3200x1 : S3200x588.Slices ![0, 555] S3200x1
  slices_S3787_o32_S3200 : S3787.Slices ![32] S3200
  slices_S3200x588_o0_556_S3200x1 : S3200x588.Slices ![0, 556] S3200x1
  slices_S3787_o31_S3200 : S3787.Slices ![31] S3200
  slices_S3200x588_o0_557_S3200x1 : S3200x588.Slices ![0, 557] S3200x1
  slices_S3787_o30_S3200 : S3787.Slices ![30] S3200
  slices_S3200x588_o0_558_S3200x1 : S3200x588.Slices ![0, 558] S3200x1
  slices_S3787_o29_S3200 : S3787.Slices ![29] S3200
  slices_S3200x588_o0_559_S3200x1 : S3200x588.Slices ![0, 559] S3200x1
  slices_S3787_o28_S3200 : S3787.Slices ![28] S3200
  slices_S3200x588_o0_560_S3200x1 : S3200x588.Slices ![0, 560] S3200x1
  slices_S3787_o27_S3200 : S3787.Slices ![27] S3200
  slices_S3200x588_o0_561_S3200x1 : S3200x588.Slices ![0, 561] S3200x1
  slices_S3787_o26_S3200 : S3787.Slices ![26] S3200
  slices_S3200x588_o0_562_S3200x1 : S3200x588.Slices ![0, 562] S3200x1
  slices_S3787_o25_S3200 : S3787.Slices ![25] S3200
  slices_S3200x588_o0_563_S3200x1 : S3200x588.Slices ![0, 563] S3200x1
  slices_S3787_o24_S3200 : S3787.Slices ![24] S3200
  slices_S3200x588_o0_564_S3200x1 : S3200x588.Slices ![0, 564] S3200x1
  slices_S3787_o23_S3200 : S3787.Slices ![23] S3200
  slices_S3200x588_o0_565_S3200x1 : S3200x588.Slices ![0, 565] S3200x1
  slices_S3787_o22_S3200 : S3787.Slices ![22] S3200
  slices_S3200x588_o0_566_S3200x1 : S3200x588.Slices ![0, 566] S3200x1
  slices_S3787_o21_S3200 : S3787.Slices ![21] S3200
  slices_S3200x588_o0_567_S3200x1 : S3200x588.Slices ![0, 567] S3200x1
  slices_S3787_o20_S3200 : S3787.Slices ![20] S3200
  slices_S3200x588_o0_568_S3200x1 : S3200x588.Slices ![0, 568] S3200x1
  slices_S3787_o19_S3200 : S3787.Slices ![19] S3200
  slices_S3200x588_o0_569_S3200x1 : S3200x588.Slices ![0, 569] S3200x1
  slices_S3787_o18_S3200 : S3787.Slices ![18] S3200
  slices_S3200x588_o0_570_S3200x1 : S3200x588.Slices ![0, 570] S3200x1
  slices_S3787_o17_S3200 : S3787.Slices ![17] S3200
  slices_S3200x588_o0_571_S3200x1 : S3200x588.Slices ![0, 571] S3200x1
  slices_S3787_o16_S3200 : S3787.Slices ![16] S3200
  slices_S3200x588_o0_572_S3200x1 : S3200x588.Slices ![0, 572] S3200x1
  slices_S3787_o15_S3200 : S3787.Slices ![15] S3200
  slices_S3200x588_o0_573_S3200x1 : S3200x588.Slices ![0, 573] S3200x1
  slices_S3787_o14_S3200 : S3787.Slices ![14] S3200
  slices_S3200x588_o0_574_S3200x1 : S3200x588.Slices ![0, 574] S3200x1
  slices_S3787_o13_S3200 : S3787.Slices ![13] S3200
  slices_S3200x588_o0_575_S3200x1 : S3200x588.Slices ![0, 575] S3200x1
  slices_S3787_o12_S3200 : S3787.Slices ![12] S3200
  slices_S3200x588_o0_576_S3200x1 : S3200x588.Slices ![0, 576] S3200x1
  slices_S3787_o11_S3200 : S3787.Slices ![11] S3200
  slices_S3200x588_o0_577_S3200x1 : S3200x588.Slices ![0, 577] S3200x1
  slices_S3787_o10_S3200 : S3787.Slices ![10] S3200
  slices_S3200x588_o0_578_S3200x1 : S3200x588.Slices ![0, 578] S3200x1
  slices_S3787_o9_S3200 : S3787.Slices ![9] S3200
  slices_S3200x588_o0_579_S3200x1 : S3200x588.Slices ![0, 579] S3200x1
  slices_S3787_o8_S3200 : S3787.Slices ![8] S3200
  slices_S3200x588_o0_580_S3200x1 : S3200x588.Slices ![0, 580] S3200x1
  slices_S3787_o7_S3200 : S3787.Slices ![7] S3200
  slices_S3200x588_o0_581_S3200x1 : S3200x588.Slices ![0, 581] S3200x1
  slices_S3787_o6_S3200 : S3787.Slices ![6] S3200
  slices_S3200x588_o0_582_S3200x1 : S3200x588.Slices ![0, 582] S3200x1
  slices_S3787_o5_S3200 : S3787.Slices ![5] S3200
  slices_S3200x588_o0_583_S3200x1 : S3200x588.Slices ![0, 583] S3200x1
  slices_S3787_o4_S3200 : S3787.Slices ![4] S3200
  slices_S3200x588_o0_584_S3200x1 : S3200x588.Slices ![0, 584] S3200x1
  slices_S3787_o3_S3200 : S3787.Slices ![3] S3200
  slices_S3200x588_o0_585_S3200x1 : S3200x588.Slices ![0, 585] S3200x1
  slices_S3787_o2_S3200 : S3787.Slices ![2] S3200
  slices_S3200x588_o0_586_S3200x1 : S3200x588.Slices ![0, 586] S3200x1
  slices_S3787_o1_S3200 : S3787.Slices ![1] S3200
  slices_S3200x588_o0_587_S3200x1 : S3200x588.Slices ![0, 587] S3200x1
  slices_S3787_o0_S3200 : S3787.Slices ![0] S3200
  inb_S1x3200x1_S1x3200x1_0_0_0 : ∀ a, (![0, 0, 0] : Fin 3 → Nat) a + S1x3200x1.size a ≤ S1x3200x1.size a
  h_S1x3200x1 : 0 < S1x3200x1.numel
  shapeCasts_S1x3200x1_S3200 : S1x3200x1.ShapeCasts S3200
  shapeCasts_S3200_S1x3200x1 : S3200.ShapeCasts S1x3200x1
  shapeCasts_S4x64000x1_S4x64000 : S4x64000x1.ShapeCasts S4x64000

class Facts₀ : Prop where
  k0 : K0.Facts₀
  shapes1 : Shapes1.Facts₀
  shapes2 : Shapes2.Facts₀
attribute [instance] Facts₀.k0 Facts₀.shapes1 Facts₀.shapes2

variable [Facts₀]

abbrev win0_0 : Pipeline.Window sig grid0 :=
  Pipeline.Window.ofSpec (Memref.whole main_arg1) S1x3200x588.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x64588.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x3200x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64000 : Shape := ⟨2, ![4, 64000]⟩
abbrev S4x64000x588 : Shape := ⟨3, ![4, 64000, 588]⟩
abbrev S4x588 : Shape := ⟨2, ![4, 588]⟩
abbrev S4x64588 : Shape := ⟨2, ![4, 64588]⟩
abbrev S64000 : Shape := ⟨1, ![64000]⟩
abbrev S64000x1 : Shape := ⟨2, ![64000, 1]⟩
abbrev S588 : Shape := ⟨1, ![588]⟩
abbrev S1x588 : Shape := ⟨2, ![1, 588]⟩
abbrev S_ : Shape := ⟨0, ![]⟩
abbrev S64000x588 : Shape := ⟨2, ![64000, 588]⟩
abbrev S64000x588x1 : Shape := ⟨3, ![64000, 588, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x64000, .f32⟩
  | .hbm, ⟨1, _⟩ => ⟨S4x64000x588, .f32⟩
  | .hbm, ⟨2, _⟩ => ⟨S4x588, .f32⟩
  | .hbm, ⟨3, _⟩ => ⟨S4x588, .f32⟩
  | .hbm, ⟨4, _⟩ => ⟨S4x64588, .f32⟩
  | .hbm, ⟨5, _⟩ => ⟨S64000, .i32⟩
  | .hbm, ⟨6, _⟩ => ⟨S64000x1, .i32⟩
  | .hbm, ⟨7, _⟩ => ⟨S588, .i32⟩
  | .hbm, ⟨8, _⟩ => ⟨S1x588, .i32⟩
  | .hbm, ⟨9, _⟩ => ⟨S_, .i32⟩
  | .hbm, ⟨10, _⟩ => ⟨S64000x1, .i32⟩
  | .hbm, ⟨11, _⟩ => ⟨S64000x1, .i32⟩
  | .hbm, ⟨12, _⟩ => ⟨S64000x588, .i32⟩
  | .hbm, ⟨13, _⟩ => ⟨S64000x588, .i32⟩
  | .hbm, ⟨14, _⟩ => ⟨S64000x588, .i32⟩
  | .hbm, ⟨15, _⟩ => ⟨S_, .i32⟩
  | .hbm, ⟨16, _⟩ => ⟨S64000x588, .i32⟩
  | .hbm, ⟨17, _⟩ => ⟨S64000x588, .i1⟩
  | .hbm, ⟨18, _⟩ => ⟨S_, .i32⟩
  | .hbm, ⟨19, _⟩ => ⟨S64000x588, .i32⟩
  | .hbm, ⟨20, _⟩ => ⟨S64000x588, .i32⟩
  | .hbm, ⟨21, _⟩ => ⟨S64000x588, .i32⟩
  | .hbm, ⟨22, _⟩ => ⟨S64000x588x1, .i32⟩
  | .hbm, ⟨23, _⟩ => ⟨S4x64000x588, .f32⟩
  | .hbm, ⟨24, _⟩ => ⟨S4x64000x588, .f32⟩
  | .hbm, ⟨25, _⟩ => ⟨S_, .f32⟩
  | .hbm, ⟨26, _⟩ => ⟨S4x64000, .f32⟩
  | .hbm, ⟨27, _⟩ => ⟨S4x64000, .f32⟩
  | _, _ => ⟨S4x64000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  concatenates_S4x588_S4x64000_S4x64588_d1 : Shape.Concatenates [S4x588, S4x64000] S4x64588 1
  bcast_S64000_S64000x1_0 : S64000.BroadcastsInDim S64000x1 (![0] : Fin 1 → Fin S64000x1.rank)
  bcast_S588_S1x588_1 : S588.BroadcastsInDim S1x588 (![1] : Fin 1 → Fin S1x588.rank)
  bcast_S_S64000x1 : S_.BroadcastsInDim S64000x1 (![] : Fin 0 → Fin S64000x1.rank)
  bcast_S64000x1_S64000x588_0_1 : S64000x1.BroadcastsInDim S64000x588 (![0, 1] : Fin 2 → Fin S64000x588.rank)
  bcast_S1x588_S64000x588_0_1 : S1x588.BroadcastsInDim S64000x588 (![0, 1] : Fin 2 → Fin S64000x588.rank)
  bcast_S_S64000x588 : S_.BroadcastsInDim S64000x588 (![] : Fin 0 → Fin S64000x588.rank)
  bcast_S64000x588_S64000x588x1_0_1 : S64000x588.BroadcastsInDim S64000x588x1 (![0, 1] : Fin 2 → Fin S64000x588x1.rank)
  reducesTo_S4x64000x588_S4x64000_d2 : S4x64000x588.ReducesTo [2] S4x64000
  h_S_ : 0 < S_.numel
  gather_S4x64588_S64000x588x1_S4x64000x588_0_1_n_n_1_2_41_wf : GatherDims.WF S4x64588 S64000x588x1 S4x64000x588 [0] [1] [] [1] [] 2 ![4, 1]

variable [Facts₀]

def gather_S4x64588_S64000x588x1_S4x64000x588_0_1_n_n_1_2_41 : GatherDims S4x64588 S64000x588x1 S4x64000x588 where
  offsetDims := [0]
  collapsedSliceDims := [1]
  operandBatchingDims := []
  startIndicesBatchingDims := []
  startIndexMap := [1]
  indexVectorDim := 2
  sliceSizes := ![4, 1]
  wf := gather_S4x64588_S64000x588x1_S4x64000x588_0_1_n_n_1_2_41_wf

class Facts : Prop extends Facts₀ where

variable [Facts]
-- ==== Proof.FirTaps.lean ====
/-
  A causal time-varying filter on one tile of 3200 rows with 588 taps, on the extended reals.
  Row `t` of the tile sees the window entries `w[t] … w[t + 587]` (3787 = 3200 + 588 - 1 entries in all), and tap `k`
  contributes `a[t, k] · w[t + (587 - k)]`: the coefficient of column `k` times the window shifted by `587 - k`.
  An accumulator built one tap at a time, in the order k = 0, 1, 2, …, holds after `n` taps the sum of the first `n`
  tap products; after all 588 it holds the sum over every tap.
-/
import Idealize.ShloMosaic.PureOps.Ideal.Laws
import Idealize.ShloMosaic.Lib.ValueIdx
import Idealize.ShloMosaic.Lib.Pipeline.Value

noncomputable section

namespace Cert.Fir

open Idealize.ShloMosaic Idealize.ShloMosaic.ValueIdx
open scoped BigOperators

/-- The rows of a tile. -/
abbrev Rows : Shape := ⟨1, ![3200]⟩
/-- A tile's coefficients: one row of 588 taps per row of the tile. -/
abbrev Coef : Shape := ⟨2, ![3200, 588]⟩
/-- One column of the coefficients. -/
abbrev Col : Shape := ⟨2, ![3200, 1]⟩
/-- The window of the padded signal a tile reads. -/
abbrev Win : Shape := ⟨1, ![3787]⟩

/-- Tap `k` at row `t`: coefficient `a[t, k]` times the window entry `w[(587 - k) + t]`; no tap beyond the 588th. -/
def tap (a : FVec Ideal Coef .f32) (w : FVec Ideal Win .f32) (k : ℕ) (t : Fin 3200) : EReal :=
  if h : k < 588 then a (ix2 t ⟨k, h⟩) * w (ix1 ⟨(587 - k) + t.val, by have := t.isLt; omega⟩) else 0

/-- `acc` holds, row by row, the sum of the first `n` taps. -/
def AccUpTo (a : FVec Ideal Coef .f32) (w : FVec Ideal Win .f32) (n : ℕ) (acc : FVec Ideal Rows .f32) : Prop :=
  ∀ t : Fin 3200, acc (ix1 t) = ∑ k ∈ Finset.range n, tap a w k t

/-- `p` holds, row by row, tap `n`. -/
def IsTap (a : FVec Ideal Coef .f32) (w : FVec Ideal Win .f32) (n : ℕ) (p : FVec Ideal Rows .f32) : Prop :=
  ∀ t : Fin 3200, p (ix1 t) = tap a w n t

/-- The zero vector holds the empty sum. -/
theorem accUpTo_zero (a : FVec Ideal Coef .f32) (w : FVec Ideal Win .f32) :
    AccUpTo a w 0 (broadcast Rows (Scalar.ofBits (F := Ideal) .f32 0x00000000#32)) := by
  intro t
  rw [Finset.range_zero, Finset.sum_empty]
  exact Ideal.ofBits_zero_f32

/-- Adding tap `n` to the sum of the first `n` taps gives the sum of the first `n + 1`. -/
theorem accUpTo_succ (a : FVec Ideal Coef .f32) (w : FVec Ideal Win .f32) (n : ℕ) (acc p : FVec Ideal Rows .f32)
    (hacc : AccUpTo a w n acc) (hp : IsTap a w n p) : AccUpTo a w (n + 1) (addf acc p) := by
  intro t
  rw [Finset.sum_range_succ, addf_apply, hacc t, hp t]

/-- Column `n` of the coefficients, as a vector over the rows, times the window cut at offset `o = 587 - n`, is tap `n`. -/
theorem isTap_mk (a : FVec Ideal Coef .f32) (w : FVec Ideal Win .f32) (n o : ℕ) (hn : n < 588) (ho : o + n = 587)
    (h1 : Coef.Slices ![0, n] Col) (h2 : Col.ShapeCasts Rows) (h3 : Win.Slices ![o] Rows) :
    IsTap a w n (mulf (shapeCast Rows (extractStridedSlice Col ![0, n] a h1) h2) (extractStridedSlice Rows ![o] w h3)) := by
  intro t
  rw [mulf_apply, tap, dif_pos hn]
  congr 1
  · rw [shapeCast_apply _ h2 (ix1 t) (ix2 t ⟨0, Nat.one_pos⟩)
      (by rw [Shape.rowMajor_val_two, Shape.rowMajor_val_one]; show t.val * 1 + 0 = t.val; omega)]
    exact extractStridedSlice_apply _ a h1 (ix2 t ⟨0, Nat.one_pos⟩) (ix2 t ⟨n, hn⟩) (fun d => match d with
      | ⟨0, _⟩ => by show t.val = 0 + t.val; omega
      | ⟨1, _⟩ => by show n = n + 0; rfl)
  · exact extractStridedSlice_apply _ w h3 (ix1 t) (ix1 ⟨(587 - n) + t.val, by have := t.isLt; omega⟩) (fun d => match d with
      | ⟨0, _⟩ => by show (587 - n) + t.val = o + t.val; omega)

/-- All 588 taps: the sum over the first 588 naturals is the sum over the tap index. -/
theorem sum_taps (a : FVec Ideal Coef .f32) (w : FVec Ideal Win .f32) (t : Fin 3200) :
    ∑ k ∈ Finset.range 588, tap a w k t
      = ∑ k : Fin 588, a (ix2 t k) * w (ix1 ⟨(587 - k.val) + t.val, by have := t.isLt; have := k.isLt; omega⟩) := by
  rw [Finset.sum_range]
  refine Finset.sum_congr rfl fun k _ => ?_
  rw [tap, dif_pos k.isLt]

end Cert.Fir

end
-- ==== Proof.BodyValue.lean ====
/-
  What one grid point's body leaves in its output block, row by row: the signal entry plus the sum of the 588 tap
  products of that row — the body adds the taps one at a time, in the order k = 0, 1, …, 587, into a zero vector.
-/
import proofs.«101027_j15625091023331_2_alg».proof.Proof.Gen.KernelIdeal.Frame
import proofs.«101027_j15625091023331_2_alg».proof.Proof.FirTaps

set_option maxRecDepth 16384

noncomputable section

namespace Cert.KernelIdeal.BodyValue

open Idealize.ShloMosaic Idealize.ShloMosaic.TcCoe Idealize.SL.Sem Idealize.ShloMosaic.ValueIdx
open Cert.KernelIdeal Cert.KernelIdeal.Gen Cert.Fir
open scoped BigOperators

/-- The three zero offsets of a whole-block access, spelt as the constant function. -/
theorem zero3 : (![0, 0, 0] : Fin 3 → ℕ) = fun _ => 0 :=
  funext fun a => by match a with | ⟨0, _⟩ => rfl | ⟨1, _⟩ => rfl | ⟨2, _⟩ => rfl

/-- The body's last lines: tap 587 is added to the sum of the first 587, the signal block (a column, read as a vector
    over the rows) is added in front, and the result is stored as a column again. -/
theorem last_tap_and_signal (w : FVec Ideal S3787 .f32) (a : FVec Ideal S3200x588 .f32) (acc : FVec Ideal S3200 .f32)
    (x2 : Vec Ideal S1x3200x1 .f32) (hacc : AccUpTo a w 587 acc) (t : Fin 3200) :
    k0_pay1 w a acc x2 (ix3 ⟨0, Nat.one_pos⟩ t ⟨0, Nat.one_pos⟩)
      = x2 (ix3 ⟨0, Nat.one_pos⟩ t ⟨0, Nat.one_pos⟩) + ∑ k ∈ Finset.range 588, tap a w k t := by
  unfold k0_pay1
  rw [shapeCast_apply _ _ (ix3 ⟨0, Nat.one_pos⟩ t ⟨0, Nat.one_pos⟩) (ix1 t)
    (by rw [Shape.rowMajor_val_three, Shape.rowMajor_val_one]; show t.val = (0 * 3200 + t.val) * 1 + 0; omega)]
  rw [addf_apply, shapeCast_apply x2 _ (ix1 t) (ix3 ⟨0, Nat.one_pos⟩ t ⟨0, Nat.one_pos⟩)
    (by rw [Shape.rowMajor_val_three, Shape.rowMajor_val_one]; show (0 * 3200 + t.val) * 1 + 0 = t.val; omega)]
  congr 1
  exact accUpTo_succ a w 587 acc _ hacc (isTap_mk a w 587 0 (by decide) (by decide) _ _ _) t

/-- THE BLOCK A POINT LEAVES, at row `t`: the signal block's entry plus the sum of the row's 588 taps, over the
    coefficient block and the window as the body loaded them. -/
theorem out_row (c : Dev nD) (i : grid0.Coords) (arg2 : Memref sig .tc .vmem S1x3200x588 .f32) (harg2 : arg2.IsWhole)
    (arg3 : Memref sig .tc .vmem S4x64588 .f32) (harg3 : arg3.IsWhole) (arg4 : Memref sig .tc .vmem S1x3200x1 .f32) (harg4 : arg4.IsWhole)
    (arg5 : Memref sig .tc .vmem S1x3200x1 .f32) (harg5 : arg5.IsWhole)
    (x0 : Vec Ideal S1x3200x588 .f32) (x1 : Vec Ideal S4x64588 .f32) (x2 : Vec Ideal S1x3200x1 .f32) (t : Fin 3200) :
    out0_A_3 (F := Ideal) c i arg2 harg2 arg3 harg3 arg4 harg4 arg5 harg5 x0 x1 x2 (ix3 ⟨0, Nat.one_pos⟩ t ⟨0, Nat.one_pos⟩)
      = x2 (ix3 ⟨0, Nat.one_pos⟩ t ⟨0, Nat.one_pos⟩)
        + ∑ k ∈ Finset.range 588, tap (kernelRun0_A.sl.r_1 (F := Ideal) c arg2 harg2 x0) (kernelRun0_A.sl.r (F := Ideal) c i arg3 harg3 x1) k t := by
  unfold out0_A_3
  rw [View.read_writes_eq_canon _ _ _ (cover0_A_3 c i arg2 harg2 arg3 harg3 arg4 harg4 arg5 harg5 x0 x1 x2)]
  unfold kernelRun0_A
  dsimp only
  rw [View.canon_unit_zero (S := S1x3200x1) zero3]
  rw [View.readAt_eq_ld, harg4.read_unread, View.ld_unit_zero (S := S1x3200x1) zero3]
  refine last_tap_and_signal _ _ _ _ ?_ t
  iterate 587 (refine accUpTo_succ _ _ _ _ _ ?_ (isTap_mk _ _ _ _ (by decide) (by decide) _ _ _))
  exact accUpTo_zero _ _

end Cert.KernelIdeal.BodyValue

end
-- ==== Proof.BlockReads.lean ====
/-
  The two blocks the body multiplies, read at an index: the coefficient block is the staged [1, 3200, 588] block with its
  unit axis dropped, and the window is the 3787 entries of row `b` of the padded signal starting at column `3200 · q`,
  `(b, q)` the grid point.
-/
import proofs.«101027_j15625091023331_2_alg».proof.Proof.BodyValue

set_option maxRecDepth 16384

noncomputable section

namespace Cert.KernelIdeal.BodyValue

open Idealize.ShloMosaic Idealize.ShloMosaic.TcCoe Idealize.SL.Sem Idealize.ShloMosaic.ValueIdx
open Cert.KernelIdeal Cert.KernelIdeal.Gen Cert.Fir
open scoped BigOperators

/-- A grid point's first coordinate is a batch row … -/
theorem coord0_lt (i : grid0.Coords) : (i 0).val < 4 := (i 0).isLt
/-- … and its second one of the 20 tiles of the time axis. -/
theorem coord1_lt (i : grid0.Coords) : (i 1).val < 20 := (i 1).isLt

/-- The coefficient block as the body uses it: entry `(t, k)` is entry `(0, t, k)` of the staged block. -/
theorem coef_apply (c : Dev nD) (arg2 : Memref sig .tc .vmem S1x3200x588 .f32) (harg2 : arg2.IsWhole)
    (x0 : Vec Ideal S1x3200x588 .f32) (t : Fin 3200) (k : Fin 588) :
    kernelRun0_A.sl.r_1 (F := Ideal) c arg2 harg2 x0 (ix2 t k) = x0 (ix3 ⟨0, Nat.one_pos⟩ t k) := by
  unfold kernelRun0_A.sl.r_1 k0_pay3
  rw [View.readAt_eq_ld, harg2.read_unread, View.ld_unit_zero (S := S1x3200x588) zero3]
  exact shapeCast_apply x0 _ (ix2 t k) (ix3 ⟨0, Nat.one_pos⟩ t k)
    (by rw [Shape.rowMajor_val_three, Shape.rowMajor_val_two]; show (0 * 3200 + t.val) * 588 + k.val = t.val * 588 + k.val; omega)

/-- The window as the body uses it: entry `j` is the padded signal at row `b`, column `3200 · q + j`. -/
theorem window_apply (c : Dev nD) (i : grid0.Coords) (arg3 : Memref sig .tc .vmem S4x64588 .f32) (harg3 : arg3.IsWhole)
    (x1 : Vec Ideal S4x64588 .f32) (j : Fin 3787) :
    kernelRun0_A.sl.r (F := Ideal) c i arg3 harg3 x1 (ix1 j)
      = x1 (ix2 ⟨(i 0).val, coord0_lt i⟩ ⟨3200 * (i 1).val + j.val, by have := coord1_lt i; have := j.isLt; omega⟩) := by
  unfold kernelRun0_A.sl.r k0_pay2
  rw [View.readAt_eq_ld, harg3.read_unread]
  rw [shapeCast_apply _ _ (ix1 j) (ix2 ⟨0, Nat.one_pos⟩ j)
    (by rw [Shape.rowMajor_val_two, Shape.rowMajor_val_one]; show 0 * 3787 + j.val = j.val; omega)]
  show x1 _ = x1 _
  congr 1
  funext a
  refine Fin.ext ?_
  match a with
  | ⟨0, _⟩ => show k0_off1 i 0 + 1 * 0 = (i 0).val; rw [k0_off1_eq]; show (i 0).val + 1 * 0 = _; omega
  | ⟨1, _⟩ => show k0_off1 i 1 + 1 * j.val = 3200 * (i 1).val + j.val; rw [k0_off1_eq]; show 3200 * (i 1).val + 1 * j.val = _; omega

/-- THE BLOCK A POINT LEAVES, at any index of the block, over the three blocks as staged: entry `(0, r, 0)` is the signal
    block's entry plus the sum over the taps `k` of coefficient `(0, r, k)` times the padded signal at row `b`, column
    `3200 · q + (587 - k) + r`. -/
theorem out_block (c : Dev nD) (i : grid0.Coords) (arg2 : Memref sig .tc .vmem S1x3200x588 .f32) (harg2 : arg2.IsWhole)
    (arg3 : Memref sig .tc .vmem S4x64588 .f32) (harg3 : arg3.IsWhole) (arg4 : Memref sig .tc .vmem S1x3200x1 .f32) (harg4 : arg4.IsWhole)
    (arg5 : Memref sig .tc .vmem S1x3200x1 .f32) (harg5 : arg5.IsWhole)
    (x0 : Vec Ideal S1x3200x588 .f32) (x1 : Vec Ideal S4x64588 .f32) (x2 : Vec Ideal S1x3200x1 .f32) (y : S1x3200x1.Idx) :
    out0_A_3 (F := Ideal) c i arg2 harg2 arg3 harg3 arg4 harg4 arg5 harg5 x0 x1 x2 y
      = x2 y + ∑ k : Fin 588, x0 (ix3 ⟨0, Nat.one_pos⟩ ⟨(y 1).val, (y 1).isLt⟩ k)
          * x1 (ix2 ⟨(i 0).val, coord0_lt i⟩ ⟨3200 * (i 1).val + ((587 - k.val) + (y 1).val), by
              have := coord1_lt i; have := k.isLt; have h : (y 1).val < 3200 := (y 1).isLt; omega⟩) := by
  obtain ⟨r, rfl⟩ : ∃ r : Fin 3200, y = ix3 ⟨0, Nat.one_pos⟩ r ⟨0, Nat.one_pos⟩ := ⟨⟨(y 1).val, (y 1).isLt⟩, by
    funext a
    match a with
    | ⟨0, _⟩ => exact Fin.ext (by have h : (y 0).val < 1 := (y 0).isLt; show (y 0).val = 0; omega)
    | ⟨1, _⟩ => rfl
    | ⟨2, _⟩ => exact Fin.ext (by have h : (y 2).val < 1 := (y 2).isLt; show (y 2).val = 0; omega)⟩
  rw [out_row, sum_taps]
  congr 1
  refine Finset.sum_congr rfl fun k _ => ?_
  rw [coef_apply, window_apply]

end Cert.KernelIdeal.BodyValue

end
-- ==== Proof.FirSpec.lean ====
/-
  The filter's result as one function of the arrays: for the signal `y : [4, 64000]`, the time-varying coefficients
  `A : [4, 64000, 588]` and the padded signal `P : [4, 64588]` (588 entries of history in front of the signal),
      out[b, T] = y[b, T] + Σ_k A[b, T, k] · P[b, (587 - k) + T],   k over the 588 taps.
-/
import Idealize.ShloMosaic.PureOps.Ideal.Laws
import Idealize.ShloMosaic.Lib.ValueIdx

noncomputable section

namespace Cert.Fir

open Idealize.ShloMosaic Idealize.ShloMosaic.ValueIdx
open scoped BigOperators

/-- The filtered signal, index by index. -/
def firOut (y : FVec Ideal ⟨2, ![4, 64000]⟩ .f32) (A : FVec Ideal ⟨3, ![4, 64000, 588]⟩ .f32)
    (P : FVec Ideal ⟨2, ![4, 64588]⟩ .f32) : FVec Ideal ⟨2, ![4, 64000]⟩ .f32 := fun i =>
  y i + ∑ k : Fin 588, A (ix3 ⟨(i 0).val, idx2_lt0 i⟩ ⟨(i 1).val, idx2_lt1 i⟩ k)
    * P (ix2 ⟨(i 0).val, idx2_lt0 i⟩ ⟨(587 - k.val) + (i 1).val, by
        have := k.isLt; have := idx2_lt1 i; omega⟩)

/-- At an index given by its coordinates. -/
theorem firOut_apply (y : FVec Ideal ⟨2, ![4, 64000]⟩ .f32) (A : FVec Ideal ⟨3, ![4, 64000, 588]⟩ .f32)
    (P : FVec Ideal ⟨2, ![4, 64588]⟩ .f32) (b : Fin 4) (T : Fin 64000) :
    firOut y A P (ix2 b T) = y (ix2 b T) + ∑ k : Fin 588, A (ix3 b T k)
      * P (ix2 b ⟨(587 - k.val) + T.val, by have := k.isLt; have := T.isLt; omega⟩) := rfl

end Cert.Fir

end
-- ==== Proof.ArrayValue.lean ====
/-
  From blocks to the array. Grid point `(b, q)` writes rows `3200 q … 3200 q + 3199` of batch row `b` of the output; the
  80 points' blocks tile the [4, 64000, 1] output, so after the run entry `(b, T, 0)` holds the signal entry plus the sum over
  the taps `k` of coefficient `(b, T, k)` times the padded signal at `(b, (587 - k) + T)`.
-/
import proofs.«101027_j15625091023331_2_alg».proof.Proof.BlockReads
import proofs.«101027_j15625091023331_2_alg».proof.Proof.FirSpec
import Idealize.ShloMosaic.Lib.StableHlo.Run

set_option maxRecDepth 16384

noncomputable section

namespace Cert.KernelIdeal.ArrayValue

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen Cert.KernelIdeal.BodyValue Cert.Fir
open scoped BigOperators

variable (m : (ℓ : Loc nD τ sig) → Buf (Elt Ideal) ℓ) (ρ : Dev nD → PrngReg)

/-- What the [4, 64000, 1] output array ends holding, as one function of the three arrays the region stages — the
    coefficients `A`, the padded signal `P` and the signal as a column `Y`: entry `(b, T, 0)` is
    `Y[b, T, 0] + Σ_k A[b, T, k] · P[b, (587 - k) + T]`. -/
def outArr (A : FVec Ideal S4x64000x588 .f32) (P : FVec Ideal S4x64588 .f32) (Y : FVec Ideal S4x64000x1 .f32) :
    FVec Ideal S4x64000x1 .f32 := fun i =>
  Y i + ∑ k : Fin 588, A (ix3 ⟨(i 0).val, (i 0).isLt⟩ ⟨(i 1).val, (i 1).isLt⟩ k)
    * P (ix2 ⟨(i 0).val, (i 0).isLt⟩ ⟨(587 - k.val) + (i 1).val, by
        have := k.isLt; have h : (i 1).val < 64000 := (i 1).isLt; omega⟩)

/-- The printed index maps, decided over the 80 grid points: the coefficient, signal and output windows sit at block
    `(b, q, 0)`, `(b, q)` the point's coordinates, and the padded-signal window is the whole array at every point. -/
theorem idx_facts : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 2) = 0 ∧ win0_1.index t (1 : Fin 2) = 0
    ∧ win0_2.index t (0 : Fin 3) = (grid0.coords t 0).val ∧ win0_2.index t (1 : Fin 3) = (grid0.coords t 1).val ∧ win0_2.index t (2 : Fin 3) = 0
    ∧ win0_3.index t (0 : Fin 3) = (grid0.coords t 0).val ∧ win0_3.index t (1 : Fin 3) = (grid0.coords t 1).val ∧ win0_3.index t (2 : Fin 3) = 0 :=
  (by decide +kernel : ∀ t : Fin grid0.N, _)

/-- Every block `(b, q, 0)` of the output is some point's. -/
theorem idx_onto : ∀ (q0 : Fin 4) (q1 : Fin 20), ∃ t : Fin cfg0.N, win0_3.index t = ![q0.val, q1.val, 0] :=
  (by decide +kernel : ∀ (q0 : Fin 4) (q1 : Fin 20), ∃ t : Fin grid0.N, win0_3.index t = ![q0.val, q1.val, 0])

/-- WHAT POINT `t` WRITES BACK is block `t` of `outArr` of the arrays as the region finds them. -/
theorem flushed_eq (c : Dev nD) (t : Fin cfg0.N) :
    (dats m 0 c).flushed 3 t
      = ((cfg0.win 3).blk t).view.read (Elt Ideal) (outArr (V m c main_arg1) (V m c main_v1) (V m c main_v2)) := by
  show (cfg0.win 3).cut (grid0.coords t) ((dats m 0 c).after 3 t) = _
  rw [after0_3]
  unfold outsAt0
  obtain ⟨a0, a1, a2, p0, p1, y0, y1, y2, o0, o1, o2⟩ := idx_facts t
  funext j
  refine (out_block c (grid0.coords t) (ms0_0 t) (hs0_0 t) (ms0_1 t) (hs0_1 t) (ms0_2 t) (hs0_2 t) (ms0_3 t) (hs0_3 t)
    (iblk m c 0 t) (iblk m c 1 t) (iblk m c 2 t) j).trans ?_
  show _ = outArr (V m c main_arg1) (V m c main_v1) (V m c main_v2) (((cfg0.win 3).blk t).view.emb j)
  unfold outArr
  have hj0 : (j 0).val < 1 := (j 0).isLt
  have hj1 : (j 1).val < 3200 := (j 1).isLt
  have hj2 : (j 2).val < 1 := (j 2).isLt
  -- the signal block's entry is the signal column's at the output's index
  have hY : ((cfg0.win 2).blk t).view.emb j = ((cfg0.win 3).blk t).view.emb j := by
    funext a; apply Fin.ext
    match a with
    | ⟨0, _⟩ => show win0_2.index t (0 : Fin 3) * 1 + 1 * (j 0).val = win0_3.index t (0 : Fin 3) * 1 + 1 * (j 0).val; omega
    | ⟨1, _⟩ => show win0_2.index t (1 : Fin 3) * 3200 + 1 * (j 1).val = win0_3.index t (1 : Fin 3) * 3200 + 1 * (j 1).val; omega
    | ⟨2, _⟩ => show win0_2.index t (2 : Fin 3) * 1 + 1 * (j 2).val = win0_3.index t (2 : Fin 3) * 1 + 1 * (j 2).val; omega
  refine congr (congrArg HAdd.hAdd (congrArg (V m c main_v2) hY)) (Finset.sum_congr rfl fun k _ => ?_)
  have hk : k.val < 588 := k.isLt
  -- the coefficient block's entry (0, r, k) is the coefficients' at (b, 3200 q + r, k)
  have hA : ((cfg0.win 0).blk t).view.emb (ix3 ⟨0, Nat.one_pos⟩ ⟨(j 1).val, hj1⟩ k)
      = ix3 ⟨((((cfg0.win 3).blk t).view.emb j) 0).val, ((((cfg0.win 3).blk t).view.emb j) 0).isLt⟩
          ⟨((((cfg0.win 3).blk t).view.emb j) 1).val, ((((cfg0.win 3).blk t).view.emb j) 1).isLt⟩ k := by
    funext a; apply Fin.ext
    match a with
    | ⟨0, _⟩ => show win0_0.index t (0 : Fin 3) * 1 + 1 * 0 = win0_3.index t (0 : Fin 3) * 1 + 1 * (j 0).val; omega
    | ⟨1, _⟩ => show win0_0.index t (1 : Fin 3) * 3200 + 1 * (j 1).val = win0_3.index t (1 : Fin 3) * 3200 + 1 * (j 1).val; omega
    | ⟨2, _⟩ => show win0_0.index t (2 : Fin 3) * 588 + 1 * k.val = k.val; omega
  -- the window's entry is the padded signal's at (b, (587 - k) + 3200 q + r)
  have hP : ((cfg0.win 1).blk t).view.emb (ix2 ⟨(grid0.coords t 0).val, coord0_lt (grid0.coords t)⟩
        ⟨3200 * (grid0.coords t 1).val + ((587 - k.val) + (j 1).val), by have := coord1_lt (grid0.coords t); omega⟩)
      = ix2 ⟨((((cfg0.win 3).blk t).view.emb j) 0).val, ((((cfg0.win 3).blk t).view.emb j) 0).isLt⟩
          ⟨(587 - k.val) + ((((cfg0.win 3).blk t).view.emb j) 1).val, by
            have h : ((((cfg0.win 3).blk t).view.emb j) 1).val < 64000 := ((((cfg0.win 3).blk t).view.emb j) 1).isLt; omega⟩ := by
    funext a; apply Fin.ext
    match a with
    | ⟨0, _⟩ => show win0_1.index t (0 : Fin 2) * 4 + 1 * (grid0.coords t 0).val = win0_3.index t (0 : Fin 3) * 1 + 1 * (j 0).val; omega
    | ⟨1, _⟩ => show win0_1.index t (1 : Fin 2) * 64588 + 1 * (3200 * (grid0.coords t 1).val + ((587 - k.val) + (j 1).val))
        = (587 - k.val) + (win0_3.index t (1 : Fin 3) * 3200 + 1 * (j 1).val); omega
  exact congr (congrArg HMul.hMul (congrArg (V m c main_arg1) hA)) (congrArg (V m c main_v1) hP)

/-- An index of the output array is in point `t`'s block iff each coordinate is in the block's range on its axis. -/
theorem mem_blk (t : Fin cfg0.N) (i : S4x64000x1.Idx) :
    i ∈ ((cfg0.win 3).blk t).view.set ↔ ∀ a : Fin 3, win0_3.index t a * S1x3200x1.size a ≤ (i a).val
      ∧ (i a).val < win0_3.index t a * S1x3200x1.size a + S1x3200x1.size a := by
  show i ∈ ((View.whole main_v3).slice (win0_3.rect t)).set ↔ _
  rw [View.set_slice_whole, Rect.mem_set_unit]
  exact Iff.rfl

/-- THE OUTPUT ARRAY after the run: row `T` of batch row `b` is written by the point `(b, T / 3200)`, so every entry is
    some point's and the array ends holding `outArr`. -/
theorem final (c : Dev nD) :
    (dats m 0 c).arrAt 3 cfg0.N = outArr (V m c main_arg1) (V m c main_v1) (V m c main_v2) :=
  (dats m 0 c).arrAt_eq_of_cover 3 _ (fun t _ => flushed_eq m c t) fun i => by
    have hi0 : (i 0).val < 4 := (i 0).isLt
    have hi1 : (i 1).val < 64000 := (i 1).isLt
    have hi2 : (i 2).val < 1 := (i 2).isLt
    obtain ⟨t, ht⟩ := idx_onto ⟨(i 0).val, hi0⟩ ⟨(i 1).val / 3200, by omega⟩
    have q0 : win0_3.index t (0 : Fin 3) = (i 0).val := congrFun ht 0
    have q1 : win0_3.index t (1 : Fin 3) = (i 1).val / 3200 := congrFun ht 1
    have q2 : win0_3.index t (2 : Fin 3) = 0 := congrFun ht 2
    refine ⟨t, flush0_3 t, ?_⟩
    rw [mem_blk]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 3200 ≤ (i 1).val ∧ (i 1).val < win0_3.index t (1 : Fin 3) * 3200 + 3200; omega
    | ⟨2, _⟩ => show win0_3.index t (2 : Fin 3) * 1 ≤ (i 2).val ∧ (i 2).val < win0_3.index t (2 : Fin 3) * 1 + 1; omega

/-- The padded signal as the region finds it: the initial conditions reversed, in front of the signal. -/
theorem V_padded (c : Dev nD) : (V m c main_v1 : S4x64588.Idx → Elt Ideal .f32)
    = concatenate S4x64588 1 [⟨S4x588, Host.reverse [1] (m ((c : Thread nD τ).loc main_arg2))⟩,
        ⟨S4x64000, m ((c : Thread nD τ).loc main_arg0)⟩] concatenates_S4x588_S4x64000_S4x64588_d1 := by
  show StableHlo.after hostOps0 (fun b => m (c, b)) (Proc.devRef .tc main_v1) = _
  after_results

/-- The signal as a column, as the region finds it. -/
theorem V_column (c : Dev nD) : (V m c main_v2 : S4x64000x1.Idx → Elt Ideal .f32)
    = broadcastInDim S4x64000x1 ![0, 1] bcast_S4x64000_S4x64000x1_0_1 (m ((c : Thread nD τ).loc main_arg0)) := by
  show StableHlo.after hostOps0 (fun b => m (c, b)) (Proc.devRef .tc main_v2) = _
  after_results

/-- @main's result: the output array with its unit axis reshaped away. -/
theorem result_eq (c : Dev nD) :
    (Pipeline.afterTail₀ cfgs (dats m) 0 (V0 m) [hostOps1] c main_v4 : S4x64000.Idx → Elt Ideal .f32)
      = shapeCast S4x64000 (outArr (V m c main_arg1) (V m c main_v1) (V m c main_v2)) shapeCasts_S4x64000x1_S4x64000 := by
  unfold Pipeline.afterTail₀
  show StableHlo.after hostOps1 _ (Proc.devRef .tc main_v4) = _
  after_results
  funext i
  exact congrArg (fun X : S4x64000x1.Idx → Elt Ideal .f32 => shapeCast S4x64000 X shapeCasts_S4x64000x1_S4x64000 i)
    ((Pipeline.withArrays_arr spec0 launch0.win.arr_inj c _ _ 3).trans (final m c))

/-- The output array with its unit axis reshaped away, over the signal as a column, is the filter's result. -/
theorem cast_outArr (y : FVec Ideal S4x64000 .f32) (A : FVec Ideal S4x64000x588 .f32) (P : FVec Ideal S4x64588 .f32) :
    shapeCast S4x64000 (outArr A P (broadcastInDim S4x64000x1 ![0, 1] bcast_S4x64000_S4x64000x1_0_1 y)) shapeCasts_S4x64000x1_S4x64000
      = firOut y A P := by
  funext i
  obtain ⟨b, T, rfl⟩ : ∃ (b : Fin 4) (T : Fin 64000), i = ix2 b T := ⟨i 0, i 1, eq_ix2 i⟩
  rw [shapeCast_apply _ _ (ix2 b T) (ix3 b T ⟨0, Nat.one_pos⟩)
    (by rw [Shape.rowMajor_val_three, Shape.rowMajor_val_two]; show (b.val * 64000 + T.val) * 1 + 0 = b.val * 64000 + T.val; omega)]
  rw [firOut_apply]
  unfold outArr
  refine congr (congrArg HAdd.hAdd ?_) rfl
  exact broadcastInDim_apply _ bcast_S4x64000_S4x64000x1_0_1 y (ix3 b T ⟨0, Nat.one_pos⟩) (ix2 b T) (fun a => match a with
    | ⟨0, _⟩ => by show b.val = if (4 : Nat) = 1 then 0 else b.val; rw [if_neg (by decide)]
    | ⟨1, _⟩ => by show T.val = if (64000 : Nat) = 1 then 0 else T.val; rw [if_neg (by decide)])

/-- THE KERNEL'S RUN, READ: every weakly fair execution terminates with @main's result at the filter's result of the
    arguments — the padded signal being the reversed initial conditions in front of the signal — and the arguments unchanged. -/
theorem run : θ_run defs (onTc (τ := τ) (main (F := Ideal))) ⟨m, fun _ => 0, ρ⟩ fun r => ∀ c : Dev nD,
      r.2.mem ((c : Thread nD τ).loc main_v4)
        = firOut (m ((c : Thread nD τ).loc main_arg0)) (m ((c : Thread nD τ).loc main_arg1))
            (concatenate S4x64588 1 [⟨S4x588, Host.reverse [1] (m ((c : Thread nD τ).loc main_arg2))⟩,
              ⟨S4x64000, m ((c : Thread nD τ).loc main_arg0)⟩] concatenates_S4x588_S4x64000_S4x64588_d1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans
        ((result_eq m c).trans (by rw [V_main_arg1, V_padded, V_column, cast_outArr])),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.ArrayValue

end
-- ==== Proof.RefValue.lean ====
/-
  The reference at an index. It builds the padded signal (the initial conditions reversed, in front of the signal), gathers
  for every row `T` and tap `k` the padded signal's column `T + 587 - k` — computed in 32-bit words that never wrap and are
  never negative, and always inside the 64588 columns, so that the gather's clamp does nothing —, multiplies by the
  coefficients and sums over the taps from zero, then adds the signal: the filter's result `Cert.Fir.firOut`.
-/
import proofs.«101027_j15625091023331_2_alg».proof.Proof.Gen.ReferenceIdeal.Read
import proofs.«101027_j15625091023331_2_alg».proof.Proof.FirSpec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx Cert.Fir
open scoped BigOperators

/-- The reference's gather: the padded signal's columns picked per (row, tap), every batch row kept. -/
abbrev pick : GatherDims S4x64588 S64000x588x1 S4x64000x588 := gather_S4x64588_S64000x588x1_S4x64000x588_0_1_n_n_1_2_41

/-- THE GATHER READ AT `(b, T, k)`: the operand at batch row `b` and at the column the start index `idx[T, k, 0]` names,
    read as a signed integer and clamped into the operand's 64588 columns. -/
theorem gather_apply {α : Type} (x : S4x64588.Idx → α) (idx : IVec S64000x588x1 32) (b : Fin 4) (T : Fin 64000) (k : Fin 588) :
    Host.gather pick x idx (ix3 b T k)
      = x (ix2 b ⟨min (idx (ix3 T k ⟨0, Nat.one_pos⟩)).toInt.toNat 64587, by omega⟩) := by
  unfold Host.gather
  congr 1
  funext a
  refine Fin.ext ?_
  match a with
  | ⟨0, _⟩ =>
    show pick.start (ix3 b T k) idx 0 + pick.batchCoord (ix3 b T k) 0 + pick.offCoord (ix3 b T k) 0 = b.val
    rw [GatherDims.batchCoord_eq_zero _ _ _ List.not_mem_nil]
    unfold GatherDims.start GatherDims.offCoord
    rw [dif_neg (by decide), dif_pos (by decide), Nat.zero_add]
    rfl
  | ⟨1, _⟩ =>
    show pick.start (ix3 b T k) idx 1 + pick.batchCoord (ix3 b T k) 1 + pick.offCoord (ix3 b T k) 1
      = min (idx (ix3 T k ⟨0, Nat.one_pos⟩)).toInt.toNat 64587
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ pick.startIndexMap from List.mem_singleton.mpr rfl)]
    have hsi : pick.siIdx (ix3 b T k) ⟨List.idxOf (1 : Fin 2) pick.startIndexMap,
        List.idxOf_lt_length_iff.2 (List.mem_singleton.mpr rfl)⟩ = ix3 T k ⟨0, Nat.one_pos⟩ := by
      funext d; refine Fin.ext ?_
      match d with
      | ⟨0, _⟩ => rfl
      | ⟨1, _⟩ => rfl
      | ⟨2, _⟩ => rfl
    rw [hsi]
    rfl

/-! ## The start indices: 32-bit words that never wrap -/

/-- Row `T`, tap `k`: the word `(T + 587) - k` is the number `(587 - k) + T`. -/
theorem start_word (T k : ℕ) (hT : T < 64000) (hk : k < 588) :
    IntOp.subi (IntOp.addi (BitVec.ofNat 32 T) 587#32) (BitVec.ofNat 32 k) = BitVec.ofNat 32 ((587 - k) + T) := by
  unfold IntOp.subi IntOp.addi
  apply BitVec.eq_of_toNat_eq
  simp only [BitVec.toNat_sub, BitVec.toNat_add, BitVec.toNat_ofNat, Nat.reducePow]
  omega

/-- A word below 2³¹ read as a signed integer is itself … -/
theorem toInt_small (n : ℕ) (hn : n < 2147483648) : (BitVec.ofNat 32 n).toInt = (n : Int) := by
  rw [BitVec.toInt_eq_toNat_cond, BitVec.toNat_ofNat]
  simp only [Nat.reducePow]
  rw [Nat.mod_eq_of_lt (by omega), if_pos (by omega)]

/-- … so it is not negative (jnp's wrap-around of negative indices is never taken) … -/
theorem not_negative (n : ℕ) (hn : n < 2147483648) : IntOp.cmpi .slt (BitVec.ofNat 32 n) 0#32 = 0#1 := by
  unfold IntOp.cmpi
  show BitVec.ofBool (BitVec.slt (BitVec.ofNat 32 n) 0#32) = 0#1
  have h : BitVec.slt (BitVec.ofNat 32 n) 0#32 = false := by
    rw [BitVec.slt, toInt_small n hn]
    simp
  rw [h]; rfl

/-- … and the gather reads it as that number. -/
theorem toNat_small (n : ℕ) (hn : n < 2147483648) : (BitVec.ofNat 32 n).toInt.toNat = n := by
  rw [toInt_small n hn]; rfl

/-- The start index the reference computes for row `T` and tap `k` is `(587 - k) + T`. -/
theorem start_index (T : Fin 64000) (k : Fin 588) :
    val_main_v16 (F := Ideal) (ix3 T k ⟨0, Nat.one_pos⟩) = BitVec.ofNat 32 ((587 - k.val) + T.val) := by
  simp only [val_main_v16_apply, val_main_v15_apply, val_main_v12_apply, val_main_v14_apply, val_main_v10_apply,
    val_main_v8_apply, val_main_v9_apply, val_main_v7_apply, val_main_v3_apply, val_main_v6_apply, val_main_v5_apply,
    val_main_v2_apply, val_main_v4_apply, val_main_c_apply, val_main_v11_apply, val_main_c_0_apply, val_main_v13_apply,
    val_main_c_1_apply]
  show Scalar.select (IntOp.cmpi .slt (IntOp.subi (IntOp.addi (BitVec.ofNat 32 T.val) 587#32) (BitVec.ofNat 32 k.val)) 0#32)
      (IntOp.addi (IntOp.subi (IntOp.addi (BitVec.ofNat 32 T.val) 587#32) (BitVec.ofNat 32 k.val)) 64588#32)
      (IntOp.subi (IntOp.addi (BitVec.ofNat 32 T.val) 587#32) (BitVec.ofNat 32 k.val)) = _
  have := T.isLt; have := k.isLt
  rw [start_word T.val k.val T.isLt k.isLt, not_negative _ (by omega), select_zero]

/-! ## The reference's result -/

/-- THE REFERENCE IS THE FILTER over the padded signal it builds: index by index the signal plus the sum over the taps of
    the coefficient times the padded signal at the gathered column `(587 - k) + T` (in range, so the gather's clamp does
    nothing); the sum starts from the zero word. -/
theorem result_padded (y : (⟨S4x64000, .f32⟩ : BufTy).Contents (Elt Ideal)) (A : (⟨S4x64000x588, .f32⟩ : BufTy).Contents (Elt Ideal))
    (zi : (⟨S4x588, .f32⟩ : BufTy).Contents (Elt Ideal)) :
    val_main_v20 (F := Ideal) y A zi = firOut y A (val_main_v1 (F := Ideal) y zi) := by
  funext i
  obtain ⟨b, T, rfl⟩ : ∃ (b : Fin 4) (T : Fin 64000), i = ix2 b T := ⟨i 0, i 1, eq_ix2 i⟩
  rw [val_main_v20_apply, val_main_v19_apply, firOut_apply, val_main_cst_apply, Ideal.ofBits_def, Ideal.ofBits_zero_f32, zero_add]
  refine congrArg (y (ix2 b T) + ·) (Finset.sum_congr rfl fun k _ => ?_)
  have hidx : idx_main_v19 (ix2 b T) k = ix3 b T k := by
    funext a; match a with | ⟨0, _⟩ => rfl | ⟨1, _⟩ => rfl | ⟨2, _⟩ => rfl
  rw [hidx, val_main_v18_apply]
  unfold val_main_v17
  generalize val_main_v1 (F := Ideal) y zi = P
  have hT := T.isLt
  have hk := k.isLt
  show A (ix3 b T k) * Host.gather pick P (val_main_v16 (F := Ideal)) (ix3 b T k) = _
  have hs : (val_main_v16 (F := Ideal) (ix3 T k ⟨0, Nat.one_pos⟩)).toInt.toNat = (587 - k.val) + T.val :=
    (congrArg (fun w : BitVec 32 => w.toInt.toNat) (start_index T k)).trans (toNat_small _ (by omega))
  rw [gather_apply]
  refine congrArg (fun j => A (ix3 b T k) * P j) (funext fun a => Fin.ext ?_)
  match a with
  | ⟨0, _⟩ => show b.val = b.val; rfl
  | ⟨1, _⟩ =>
    show min (val_main_v16 (F := Ideal) (ix3 T k ⟨0, Nat.one_pos⟩)).toInt.toNat 64587 = (587 - k.val) + T.val
    rw [hs]; omega

/-- The padded signal is the reversed initial conditions in front of the signal. -/
theorem result_eq (y : (⟨S4x64000, .f32⟩ : BufTy).Contents (Elt Ideal)) (A : (⟨S4x64000x588, .f32⟩ : BufTy).Contents (Elt Ideal))
    (zi : (⟨S4x588, .f32⟩ : BufTy).Contents (Elt Ideal)) :
    val_main_v20 (F := Ideal) y A zi
      = firOut y A (concatenate S4x64588 1 [⟨S4x588, Host.reverse [1] zi⟩, ⟨S4x64000, y⟩] concatenates_S4x588_S4x64000_S4x64588_d1) :=
  result_padded y A zi

end Cert.ReferenceIdeal.RefValue

end
-- ==== Proof.lean ====
/-
  The certificate of a causal time-varying filter: for a signal `y : [4, 64000]`, coefficients `A : [4, 64000, 588]` and
  initial conditions `zi : [4, 588]`, with the padded signal `P` = `zi` reversed in front of `y`,
      out[b, T] = y[b, T] + Σ_k A[b, T, k] · P[b, (587 - k) + T].
  The kernel computes it tile by tile (3200 rows a grid point), adding the 588 tap products of a tile one after the other
  into a zero vector; the reference gathers the shifted signal for all rows at once and sums over the taps. On the extended
  reals both are the sum above: the kernel's accumulator after `n` taps is the sum of the first `n` (Proof/FirTaps.lean,
  Proof/BodyValue.lean), its blocks tile the output (Proof/ArrayValue.lean), and the reference's gather reads the same
  columns (Proof/RefValue.lean). Only the sum's bracketing differs between the two, and a sum of the extended reals does
  not depend on it, so the finiteness of the inputs is never used. No operation was rewritten when the kernel was idealized.
-/
import proofs.«101027_j15625091023331_2_alg».proof.Defs
import proofs.«101027_j15625091023331_2_alg».proof.Proof.Gen.Kernel
import proofs.«101027_j15625091023331_2_alg».proof.Proof.Gen.Kernel.Frame
import proofs.«101027_j15625091023331_2_alg».proof.Proof.Gen.KernelIdeal
import proofs.«101027_j15625091023331_2_alg».proof.Proof.Gen.KernelIdeal.Frame
import proofs.«101027_j15625091023331_2_alg».proof.Proof.Gen.ReferenceIdeal
import proofs.«101027_j15625091023331_2_alg».proof.Proof.Gen.ReferenceIdeal.Run
import proofs.«101027_j15625091023331_2_alg».proof.Proof.Gen.Pre_finite_inputs
import proofs.«101027_j15625091023331_2_alg».proof.Proof.ArrayValue
import proofs.«101027_j15625091023331_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten, so there is nothing to preserve. -/
theorem preserves : Cert.preserves_Kernel_KernelIdeal := trivial

/-- From memories agreeing on the arguments both programs end with the filter's result of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v20_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
